-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x128 : Shape := ⟨2, ![800000, 128]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x128 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S50000x256 .f32) (main_arg1 : FVec F S800000x128 .f32) (main_arg2 : IVec S800000 32) (main_arg3 : FVec F S256x256 .f32) (main_arg4 : FVec F S256 .f32) (main_arg5 : FVec F S256x128 .f32) (main_arg6 : FVec F S256 .f32) (main_arg7 : FVec F S256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S800000x128 : Shape := ⟨2, ![800000, 128]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S_ : Shape := ⟨0, ![]⟩
abbrev S50000x128 : Shape := ⟨2, ![50000, 128]⟩
abbrev S800000x1 : Shape := ⟨2, ![800000, 1]⟩
abbrev S50000 : Shape := ⟨1, ![50000]⟩
abbrev S50000x1 : Shape := ⟨2, ![50000, 1]⟩
abbrev S1x256 : Shape := ⟨2, ![1, 256]⟩
abbrev S2x1x256 : Shape := ⟨3, ![2, 1, 256]⟩
abbrev S1000x256 : Shape := ⟨2, ![1000, 256]⟩
abbrev S1000x128 : Shape := ⟨2, ![1000, 128]⟩
abbrev S1000x1 : Shape := ⟨2, ![1000, 1]⟩
abbrev S1x1x256 : Shape := ⟨3, ![1, 1, 256]⟩
abbrev S2000x256 : Shape := ⟨2, ![2000, 256]⟩
abbrev S2000x128 : Shape := ⟨2, ![2000, 128]⟩
abbrev S2000x1 : Shape := ⟨2, ![2000, 1]⟩

abbrev nBuf : Space → Nat
  | .hbm => 42
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S800000x128, .f32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S50000x1, .f32⟩
  | .hbm, ⟨20, _⟩ => ⟨S1x256, .f32⟩
  | .hbm, ⟨21, _⟩ => ⟨S1x256, .f32⟩
  | .hbm, ⟨22, _⟩ => ⟨S2x1x256, .f32⟩
  | .hbm, ⟨23, _⟩ => ⟨S2x1x256, .f32⟩
  | .hbm, ⟨24, _⟩ => ⟨S_, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x128, .f32⟩
  | .local _ .vmem, ⟨3, _⟩ => ⟨S1000x128, .f32⟩
  | .local _ .vmem, ⟨4, _⟩ => ⟨S1000x1, .f32⟩
  | .local _ .vmem, ⟨5, _⟩ => ⟨S1000x1, .f32⟩
  | .local _ .vmem, ⟨6, _⟩ => ⟨S256x256, .f32⟩
  | .local _ .vmem, ⟨7, _⟩ => ⟨S256x128, .f32⟩
  | .local _ .vmem, ⟨8, _⟩ => ⟨S1x256, .f32⟩
  | .local _ .vmem, ⟨9, _⟩ => ⟨S1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S2000x256, .f32⟩
  | .local _ .vmem, ⟨15, _⟩ => ⟨S2000x256, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S256x256, .f32⟩
  | .local _ .vmem, ⟨21, _⟩ => ⟨S256x128, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  shapeCasts_S50000_S50000x1 : S50000.ShapeCasts S50000x1
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S256x128_S256x128_0_0 : ∀ a, (![0, 0] : Fin 2 → Nat) a + S256x128.size a ≤ S256x128.size a
  h_S256x128 : 0 < S256x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1000x1_S1000x256 : S1000x1.Broadcasts S1000x256
  broadcasts_S1x256_S1000x256 : S1x256.Broadcasts S1000x256
  reduces_S1000x256_S256 : S1000x256.Reduces [0] S256
  shapeCasts_S1x256_S1x1x256 : S1x256.ShapeCasts S1x1x256
  shapeCasts_S1x1x256_S1x1x256 : S1x1x256.ShapeCasts S1x1x256
  reducesTo_S2x1x256_S1x256_d0 : S2x1x256.ReducesTo [0] S1x256
  h_S_ : 0 < S_.numel
  bcast_S_S1x256 : S_.BroadcastsInDim S1x256 (![] : Fin 0 → Fin S1x256.rank)
  inb_S2000x256_S2000x256_0_0 : ∀ a, (![0, 0] : Fin 2 → Nat) a + S2000x256.size a ≤ S2000x256.size a
  h_S2000x256 : 0 < S2000x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  broadcasts_S1x256_S2000x256 : S1x256.Broadcasts S2000x256
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S1000x256_S256x256_S1000x256_1_1_0_0_n_n_wf : DotDims.WF S1000x256 S256x256 S1000x256 [1] [1] [0] [0] [] []
  dot_S1000x128_S256x128_S1000x256_1_1_0_0_n_n_wf : DotDims.WF S1000x128 S256x128 S1000x256 [1] [1] [0] [0] [] []
  dot_S2000x256_S256x256_S2000x256_1_1_0_0_n_n_wf : DotDims.WF S2000x256 S256x256 S2000x256 [1] [1] [0] [0] [] []
  dot_S2000x128_S256x128_S2000x256_1_1_0_0_n_n_wf : DotDims.WF S2000x128 S256x128 S2000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S2x1x256.size a
  hwx0_7 : ∀ i : grid0.Coords, EltTy.bits .f32 = 32 ∨ (Rect.block (s := S2x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S2x1x256.size a
  hwx0_8 : ∀ i : grid0.Coords, EltTy.bits .f32 = 32 ∨ (Rect.block (s := S2x1x256) S1x1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x256.size a ≤ S50000x256.size a
  hwx1_11 : ∀ i : grid1.Coords, EltTy.bits .f32 = 32 ∨ (Rect.block (s := S50000x256) S2000x256.size (cc1_transform_11 i) (hinb1_11 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf
def dot_S1000x128_S256x128_S1000x256_1_1_0_0_n_n : DotDims S1000x128 S256x128 S1000x256 where
  lhsContracting := [1]
  rhsContracting := [1]
  lhsNonContracting := [0]
  rhsNonContracting := [0]
  lhsBatch := []
  rhsBatch := []
  wf := dot_S1000x128_S256x128_S1000x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1x1x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1x1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v23) S2000x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000x128 : Shape := ⟨2, ![800000, 128]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S800000x256 : Shape := ⟨2, ![800000, 256]⟩
abbrev S1x256 : Shape := ⟨2, ![1, 256]⟩
abbrev S_ : Shape := ⟨0, ![]⟩
abbrev S800000x1 : Shape := ⟨2, ![800000, 1]⟩

abbrev nBuf : Space → Nat
  | .hbm => 55
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x128, .f32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S800000x256, .f32⟩
  | .hbm, ⟨10, _⟩ => ⟨S1x256, .f32⟩
  | .hbm, ⟨11, _⟩ => ⟨S800000x256, .f32⟩
  | .hbm, ⟨12, _⟩ => ⟨S800000x256, .f32⟩
  | .hbm, ⟨13, _⟩ => ⟨S_, .f32⟩
  | .hbm, ⟨14, _⟩ => ⟨S50000x256, .f32⟩
  | .hbm, ⟨15, _⟩ => ⟨S800000x1, .i32⟩
  | .hbm, ⟨16, _⟩ => ⟨S50000x256, .f32⟩
  | .hbm, ⟨17, _⟩ => ⟨S50000x256, .f32⟩
  | .hbm, ⟨18, _⟩ => ⟨S50000x256, .f32⟩
  | .hbm, ⟨19, _⟩ => ⟨S1x256, .f32⟩
  | .hbm, ⟨20, _⟩ => ⟨S50000x256, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S50000x256 : S_.BroadcastsInDim S50000x256 (![] : Fin 0 → Fin S50000x256.rank)
  bcast_S800000_S800000x1_0 : S800000.BroadcastsInDim S800000x1 (![0] : Fin 1 → Fin S800000x1.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  dot_S800000x128_S256x128_S800000x256_1_1_0_0_n_n_wf : DotDims.WF S800000x128 S256x128 S800000x256 [1] [1] [0] [0] [] []
  scatter_S50000x256_S800000x1_S800000x256_1_0_0_1_wf : ScatterDims.WF S50000x256 S800000x1 S800000x256 [1] [0] [0] 1
  dot_S50000x256_S256x256_S50000x256_1_1_0_0_n_n_wf : DotDims.WF S50000x256 S256x256 S50000x256 [1] [1] [0] [0] [] []

variable [Facts₀]

def dot_S800000x128_S256x128_S800000x256_1_1_0_0_n_n : DotDims S800000x128 S256x128 S800000x256 where
  lhsContracting := [1]
  rhsContracting := [1]
  lhsNonContracting := [0]
  rhsNonContracting := [0]
  lhsBatch := []
  rhsBatch := []
  wf := dot_S800000x128_S256x128_S800000x256_1_1_0_0_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_1_0_0_n_n : DotDims S50000x256 S256x256 S50000x256 where
  lhsContracting := [1]
  rhsContracting := [1]
  lhsNonContracting := [0]
  rhsNonContracting := [0]
  lhsBatch := []
  rhsBatch := []
  wf := dot_S50000x256_S256x256_S50000x256_1_1_0_0_n_n_wf

class Facts : Prop extends Facts₀ where

variable [Facts]
-- ==== Proof.RunValue.lean ====
/-
  The idealized kernel's run with its result named: every weakly fair execution of @main terminates, nothing
  faulting, with the result buffer holding what the last region's write-backs leave (the contents `W4` of the
  boundary after the second pallas_call) and the arguments unchanged.
-/
import proofs.«118495_j41162966565588_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.Boundary.lean ====
/-
  What each pallas_call finds in its operand arrays.

  The first call's row-wise operands are the node features as launched, the edge features summed into their
  destination nodes, and the count of edges arriving at each node as a column; its row operands are the two bias
  vectors as rows. None of these is written again, so the second call finds the same, and beside them the mean row
  and the variance row the host forms from the first call's two written-back arrays of run totals, and the gain and
  offset vectors as rows.
-/
import proofs.«118495_j41162966565588_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.Boundary

open Cert.KernelIdeal Cert.KernelIdeal.Gen
open Idealize.ShloMosaic Idealize.ShloMosaic.TcCoe Idealize.SL.Sem Idealize.ShloMosaic.Tactic Idealize.ShloMosaic.StableHlo

variable {F : FTy → Type} [FloatOps F]
variable (m : (ℓ : Loc nD τ sig) → Buf (Elt F) ℓ) (ρ : Dev nD → PrngReg)

/-! ## The second call's carried operands are the first call's -/

theorem V3_main_arg0 (c : Dev nD) : V3 m ρ c main_arg0 = V1 m ρ c main_arg0 :=
  calc W3 m ρ c (Proc.devRef .tc main_arg0)
    _ = W2 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))

theorem V3_main_v2 (c : Dev nD) : V3 m ρ c main_v2 = V1 m ρ c main_v2 :=
  calc W3 m ρ c (Proc.devRef .tc main_v2)
    _ = W2 m ρ c (Proc.devRef .tc main_v2) := StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v2) := (W2_arr m ρ c 1).trans (((dat0 (V1 m ρ) c).arrAt_in 1 rfl _).trans (A_eq0 (V1 m ρ) c 1))

theorem V3_main_v7 (c : Dev nD) : V3 m ρ c main_v7 = V1 m ρ c main_v7 :=
  calc W3 m ρ c (Proc.devRef .tc main_v7)
    _ = W2 m ρ c (Proc.devRef .tc main_v7) := StableHlo.after_of_forall_not_mem (b := Proc.devRef .tc main_v7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v7) := (W2_arr m ρ c 2).trans (((dat0 (V1 m ρ) c).arrAt_in 2 rfl _).trans (A_eq0 (V1 m ρ) c 2))

theorem V3_main_arg3 (c : Dev nD) : V3 m ρ c main_arg3 = V1 m ρ c main_arg3 :=
  calc W3 m ρ c (Proc.devRef .tc main_arg3)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))

theorem V3_main_arg5 (c : Dev nD) : V3 m ρ c main_arg5 = V1 m ρ c main_arg5 :=
  calc W3 m ρ c (Proc.devRef .tc main_arg5)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := (W2_arr m ρ c 4).trans (((dat0 (V1 m ρ) c).arrAt_in 4 rfl _).trans (A_eq0 (V1 m ρ) c 4))

theorem V3_main_v8 (c : Dev nD) : V3 m ρ c main_v8 = V1 m ρ c main_v8 :=
  calc W3 m ρ c (Proc.devRef .tc main_v8)
    _ = W2 m ρ c (Proc.devRef .tc main_v8) := StableHlo.after_of_forall_not_mem (b := Proc.devRef .tc main_v8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v8) := (W2_arr m ρ c 5).trans (((dat0 (V1 m ρ) c).arrAt_in 5 rfl _).trans (A_eq0 (V1 m ρ) c 5))

theorem V3_main_v9 (c : Dev nD) : V3 m ρ c main_v9 = V1 m ρ c main_v9 :=
  calc W3 m ρ c (Proc.devRef .tc main_v9)
    _ = W2 m ρ c (Proc.devRef .tc main_v9) := StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v9) := (W2_arr m ρ c 6).trans (((dat0 (V1 m ρ) c).arrAt_in 6 rfl _).trans (A_eq0 (V1 m ρ) c 6))

/-! ## The first call's operands, from the launch memory -/

theorem V1_main_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem V1_main_arg3 (c : Dev nD) : V1 m ρ c main_arg3 = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem V1_main_arg5 (c : Dev nD) : V1 m ρ c main_arg5 = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- The edge features summed into their destination nodes. -/
theorem V1_main_v2 (c : Dev nD) : V1 m ρ c main_v2 = Host.scatterAdd scatter_S50000x128_S800000x1_S800000x128_1_0_0_1
      (broadcastInDim S50000x128 ![] bcast_S_S50000x128 (constant S_ .f32 0x00000000#32))
      (broadcastInDim S800000x1 ![0] bcast_S800000_S800000x1_0 (m ((c : Thread nD τ).loc main_arg2)))
      (m ((c : Thread nD τ).loc main_arg1)) := by
  show StableHlo.after hostOps0 (W0 m ρ c) (Proc.devRef .tc main_v2) = _
  after_results

/-- The number of edges arriving at each node, as a column. -/
theorem V1_main_v7 (c : Dev nD) : V1 m ρ c main_v7 = shapeCast S50000x1 (Host.scatterAdd scatter_S50000_S800000x1_S800000_n_0_0_1
      (broadcastInDim S50000 ![] bcast_S_S50000 (constant S_ .f32 0x00000000#32))
      (broadcastInDim S800000x1 ![0] bcast_S800000_S800000x1_0 (m ((c : Thread nD τ).loc main_arg2)))
      (broadcastInDim S800000 ![] bcast_S_S800000 (constant S_ .f32 0x3F800000#32))) shapeCasts_S50000_S50000x1 := by
  show StableHlo.after hostOps0 (W0 m ρ c) (Proc.devRef .tc main_v7) = _
  after_results
  rfl

theorem V1_main_v8 (c : Dev nD) : V1 m ρ c main_v8 = shapeCast S1x256 (m ((c : Thread nD τ).loc main_arg4)) shapeCasts_S256_S1x256 := by
  show StableHlo.after hostOps0 (W0 m ρ c) (Proc.devRef .tc main_v8) = _
  after_results
  rfl

theorem V1_main_v9 (c : Dev nD) : V1 m ρ c main_v9 = shapeCast S1x256 (m ((c : Thread nD τ).loc main_arg6)) shapeCasts_S256_S1x256 := by
  show StableHlo.after hostOps0 (W0 m ρ c) (Proc.devRef .tc main_v9) = _
  after_results
  rfl

/-! ## The statistics rows the host forms between the calls -/

/-- The first call's written-back arrays, at the boundary after it. -/
theorem W2_totals (c : Dev nD) : W2 m ρ c (Proc.devRef .tc main_v10_0) = (dat0 (V1 m ρ) c).arrAt 7 cfg0.N := W2_arr m ρ c 7
theorem W2_totals' (c : Dev nD) : W2 m ρ c (Proc.devRef .tc main_v10_1) = (dat0 (V1 m ρ) c).arrAt 8 cfg0.N := W2_arr m ρ c 8

/-- The mean row: the two cores' totals added from zero, divided by the number of nodes. -/
theorem V3_main_v14 (c : Dev nD) : V3 m ρ c main_v14 = Host.divf
      (Host.reduceAdd (W2 m ρ c (Proc.devRef .tc main_v10_0)) (constant S_ .f32 0x00000000#32) reducesTo_S2x1x256_S1x256_d0 h_S_)
      (broadcastInDim S1x256 ![] bcast_S_S1x256 (constant S_ .f32 0x47435000#32)) := by
  show StableHlo.after hostOps1 (W2 m ρ c) (Proc.devRef .tc main_v14) = _
  after_results

/-- The variance row: the mean of the squares minus the squared mean, clipped below at zero. -/
theorem V3_main_v20 (c : Dev nD) : V3 m ρ c main_v20 = maximumf (subf (Host.divf
      (Host.reduceAdd (W2 m ρ c (Proc.devRef .tc main_v10_1)) (constant S_ .f32 0x00000000#32) reducesTo_S2x1x256_S1x256_d0 h_S_)
      (broadcastInDim S1x256 ![] bcast_S_S1x256 (constant S_ .f32 0x47435000#32)))
      (mulf (Host.divf
      (Host.reduceAdd (W2 m ρ c (Proc.devRef .tc main_v10_0)) (constant S_ .f32 0x00000000#32) reducesTo_S2x1x256_S1x256_d0 h_S_)
      (broadcastInDim S1x256 ![] bcast_S_S1x256 (constant S_ .f32 0x47435000#32))) (Host.divf
      (Host.reduceAdd (W2 m ρ c (Proc.devRef .tc main_v10_0)) (constant S_ .f32 0x00000000#32) reducesTo_S2x1x256_S1x256_d0 h_S_)
      (broadcastInDim S1x256 ![] bcast_S_S1x256 (constant S_ .f32 0x47435000#32)))))
      (broadcastInDim S1x256 ![] bcast_S_S1x256 (constant S_ .f32 0x00000000#32)) := by
  show StableHlo.after hostOps1 (W2 m ρ c) (Proc.devRef .tc main_v20) = _
  after_results

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

theorem V3_main_v21 (c : Dev nD) : V3 m ρ c main_v21 = shapeCast S1x256 (m ((c : Thread nD τ).loc main_arg7)) shapeCasts_S256_S1x256 := by
  show StableHlo.after hostOps1 (W2 m ρ c) (Proc.devRef .tc main_v21) = _
  after_results
  rw [W2_main_arg7]
  rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

theorem V3_main_v22 (c : Dev nD) : V3 m ρ c main_v22 = shapeCast S1x256 (m ((c : Thread nD τ).loc main_arg8)) shapeCasts_S256_S1x256 := by
  show StableHlo.after hostOps1 (W2 m ρ c) (Proc.devRef .tc main_v22) = _
  after_results
  rw [W2_main_arg8]
  rfl

end Cert.Boundary

end
-- ==== Proof.Spec.lean ====
/-
  The functions both programs compute, written over plain coordinate functions into the extended reals.

  A node's hidden vector before normalisation is
    hrelu n h = max (((∑ₖ x n k · Wa h k + ∑ₖ aw n k · Wb h k) + dg n · bb h) + ba h) 0
  where `aw n` is the sum of the edge features arriving at node `n` and `dg n` the number of such edges; the reference
  instead sums the projected edge features `∑ₖ w e k · Wb h k + bb h` over the arriving edges, and the two agree on
  real inputs because the projection is linear. The output is the batch-normalised
    fin hr mean var γ β = ((hr − mean) · rsqrt (var + ε)) · γ + β.
-/
import Idealize.ShloMosaic.PureOps.Ideal
import Idealize.ShloMosaic.Lib.ValueIdx
import Mathlib.Data.EReal.Basic

noncomputable section

namespace Cert.Spec

open Idealize.ShloMosaic Idealize.ShloMosaic.ValueIdx

/-- A matrix read at coordinates. -/
abbrev m2 {a b : ℕ} (v : (⟨2, ![a, b]⟩ : Shape).Idx → EReal) : Fin a → Fin b → EReal := fun i j => v (ix2 i j)
/-- A one-column matrix read at its row. -/
abbrev col {a : ℕ} (v : (⟨2, ![a, 1]⟩ : Shape).Idx → EReal) : Fin a → EReal := fun i => v (ix2 i (0 : Fin 1))
/-- A one-row matrix read at its column. -/
abbrev row {b : ℕ} (v : (⟨2, ![1, b]⟩ : Shape).Idx → EReal) : Fin b → EReal := fun j => v (ix2 (0 : Fin 1) j)

/-- The float zero word, as both programs spell it. -/
abbrev z32 : EReal := Ideal.ofBits .f32 0x00000000#32
/-- The variance offset ε, the same word in both programs. -/
abbrev eps : EReal := Ideal.ofBits .f32 0x3727C5AC#32

/-- The hidden vector of row `p` after the rectifier: node projection plus projected edge aggregate plus
    degree-weighted edge bias plus node bias, clipped below at zero. -/
def hrelu {R : ℕ} (x : Fin R → Fin 256 → EReal) (aw : Fin R → Fin 128 → EReal) (dg : Fin R → EReal)
    (Wa : Fin 256 → Fin 256 → EReal) (Wb : Fin 256 → Fin 128 → EReal) (ba bb : Fin 256 → EReal)
    (p : Fin R) (q : Fin 256) : EReal :=
  max ((((∑ k : Fin 256, x p k * Wa q k) + ∑ k : Fin 128, aw p k * Wb q k) + dg p * bb q) + ba q) z32

/-- Row `p` of the hidden matrix depends on row `p` of the row-wise operands only: reading the operands through a
    row re-indexing `g` re-indexes the result. -/
theorem hrelu_reindex {R R' : ℕ} (g : Fin R' → Fin R) (x : Fin R → Fin 256 → EReal) (aw : Fin R → Fin 128 → EReal)
    (dg : Fin R → EReal) (Wa : Fin 256 → Fin 256 → EReal) (Wb : Fin 256 → Fin 128 → EReal) (ba bb : Fin 256 → EReal)
    (p : Fin R') (q : Fin 256) :
    hrelu (fun r => x (g r)) (fun r => aw (g r)) (fun r => dg (g r)) Wa Wb ba bb p q = hrelu x aw dg Wa Wb ba bb (g p) q := rfl

/-- The normalisation of one entry. -/
def fin (hr mean var γ β : EReal) : EReal := ((hr - mean) * Ideal.rsqrt (var + eps)) * γ + β

end Cert.Spec

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibColSum.lean ====
/-
  A sum down the columns of a matrix, and a matrix product of columns with columns, read at coordinates.

  The reduction of an `[a, b]` matrix of extended reals over its FIRST axis, read at column `q`, is the sum of that column.
  A matrix product that contracts the first axis of both operands (`Aᵀ · B`) into a zero accumulator has entry `(p, q)`
  equal to the sum over `k` of `A[k, p] · B[k, q]`.
-/
import Idealize.ShloMosaic.Lib.Pipeline.Value
import Idealize.ShloMosaic.Lib.ValueIdx
import Idealize.ShloMosaic.PureOps.Ideal.Laws

namespace Cert.LibColSum

open Idealize.ShloMosaic Idealize.ShloMosaic.ValueIdx

/-- The sum over the first axis of a matrix of extended reals, read at column `q`: the column's sum. -/
theorem multiReduction_add_cols {a b : ℕ} (src : FVec Ideal ⟨2, ![a, b]⟩ .f32) (acc : BitVec 32)
    (h : (⟨2, ![a, b]⟩ : Shape).Reduces [0] ⟨1, ![b]⟩) (hφ : FKind.Formats FTy.f32) (hacc : acc = FKind.add.neutral FTy.f32 hφ)
    (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => ?_
  exact congrArg src (funext fun ax => Fin.ext (by match ax with | ⟨0, _⟩ => rfl | ⟨1, _⟩ => rfl))

/-- A matrix product of columns with columns (`Aᵀ · B`: the first axis of each operand contracted) into a zero
    accumulator, on the extended reals: entry `(p, q)` is the sum over `k` of `A[k, p] · B[k, q]`. The record's own
    facts are hypotheses, closed at a literal record by `rfl` and by unfolding the index functions. -/
theorem matmul_cols_cols_apply {M K N : ℕ} {φ₁ φ₂ : FTy} (d : DotDims ⟨2, ![K, M]⟩ ⟨2, ![K, N]⟩ ⟨2, ![M, N]⟩)
    (hr : d.contr.rank = 1) (hs : d.contr.size ⟨0, by omega⟩ = K)
    (hlc : d.lhsContracting = [0]) (hrc : d.rhsContracting = [0])
    (hl1 : ∀ j k, (d.lhsIdx j k 1).val = (j 0).val) (hr1 : ∀ j k, (d.rhsIdx j k 1).val = (j 1).val)
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 k p) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact hl1 _ _)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibColSum
-- ==== Proof.Payload.lean ====
/-
  The two kernel bodies' arithmetic read at one entry, on the extended reals.

  Both bodies first form the rectified hidden block of their rows: two matrix products into zero accumulators
  (rows with rows), the degree column times the edge-bias row, the node-bias row, a maximum with the zero splat.
  The statistics body then sums that block, and its square, down its rows; the finishing body subtracts the mean row,
  scales by the reciprocal root of the variance row plus ε, by the gain row, and adds the offset row.
  The changes of float format around the matrix products are the identity on extended reals.
-/
import proofs.«118495_j41162966565588_2_alg».proof.Proof.Gen.KernelIdeal.Skeleton
import proofs.«118495_j41162966565588_2_alg».proof.Proof.Spec
import proofs.«118495_j41162966565588_2_alg».proof.Proof.LibLayout
import proofs.«118495_j41162966565588_2_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen Cert.Spec

variable [Cert.KernelIdeal.Facts]

/-! ## The four matrix products at an entry -/

theorem dotA0_l (j : S1000x256.Idx) (k : dot_S1000x256_S256x256_S1000x256_1_1_0_0_n_n.contr.Idx) : (dot_S1000x256_S256x256_S1000x256_1_1_0_0_n_n.lhsIdx j k 0).val = (j 0).val := by
  unfold DotDims.lhsIdx
  rw [dif_neg (show ¬(0 : Fin S1000x256.rank) ∈ dot_S1000x256_S256x256_S1000x256_1_1_0_0_n_n.lhsBatch by decide), dif_pos (show (0 : Fin S1000x256.rank) ∈ dot_S1000x256_S256x256_S1000x256_1_1_0_0_n_n.lhsNonContracting by decide)]
  rfl
theorem dotA0_r (j : S1000x256.Idx) (k : dot_S1000x256_S256x256_S1000x256_1_1_0_0_n_n.contr.Idx) : (dot_S1000x256_S256x256_S1000x256_1_1_0_0_n_n.rhsIdx j k 0).val = (j 1).val := by
  unfold DotDims.rhsIdx
  rw [dif_neg (show ¬(0 : Fin S256x256.rank) ∈ dot_S1000x256_S256x256_S1000x256_1_1_0_0_n_n.rhsBatch by decide), dif_pos (show (0 : Fin S256x256.rank) ∈ dot_S1000x256_S256x256_S1000x256_1_1_0_0_n_n.rhsNonContracting by decide)]
  rfl
/-- The product of rows with rows into the zero accumulator, at entry `(p, q)`. -/
theorem mmA0 {φ₁ φ₂ : FTy} (l : FVec Ideal S1000x256 φ₁) (r : FVec Ideal S256x256 φ₂) (p : Fin 1000) (q : Fin 256) :
    matmul dot_S1000x256_S256x256_S1000x256_1_1_0_0_n_n none l r (constant S1000x256 .f32 0x00000000#32) (ix2 p q) = ∑ k : Fin 256, l (ix2 p k) * r (ix2 q k) :=
  Cert.LibLayout.matmul_rows_rows_apply dot_S1000x256_S256x256_S1000x256_1_1_0_0_n_n rfl rfl rfl rfl dotA0_l dotA0_r none l r p q

theorem dotB0_l (j : S1000x256.Idx) (k : dot_S1000x128_S256x128_S1000x256_1_1_0_0_n_n.contr.Idx) : (dot_S1000x128_S256x128_S1000x256_1_1_0_0_n_n.lhsIdx j k 0).val = (j 0).val := by
  unfold DotDims.lhsIdx
  rw [dif_neg (show ¬(0 : Fin S1000x128.rank) ∈ dot_S1000x128_S256x128_S1000x256_1_1_0_0_n_n.lhsBatch by decide), dif_pos (show (0 : Fin S1000x128.rank) ∈ dot_S1000x128_S256x128_S1000x256_1_1_0_0_n_n.lhsNonContracting by decide)]
  rfl
theorem dotB0_r (j : S1000x256.Idx) (k : dot_S1000x128_S256x128_S1000x256_1_1_0_0_n_n.contr.Idx) : (dot_S1000x128_S256x128_S1000x256_1_1_0_0_n_n.rhsIdx j k 0).val = (j 1).val := by
  unfold DotDims.rhsIdx
  rw [dif_neg (show ¬(0 : Fin S256x128.rank) ∈ dot_S1000x128_S256x128_S1000x256_1_1_0_0_n_n.rhsBatch by decide), dif_pos (show (0 : Fin S256x128.rank) ∈ dot_S1000x128_S256x128_S1000x256_1_1_0_0_n_n.rhsNonContracting by decide)]
  rfl
/-- The product of rows with rows into the zero accumulator, at entry `(p, q)`. -/
theorem mmB0 {φ₁ φ₂ : FTy} (l : FVec Ideal S1000x128 φ₁) (r : FVec Ideal S256x128 φ₂) (p : Fin 1000) (q : Fin 256) :
    matmul dot_S1000x128_S256x128_S1000x256_1_1_0_0_n_n none l r (constant S1000x256 .f32 0x00000000#32) (ix2 p q) = ∑ k : Fin 128, l (ix2 p k) * r (ix2 q k) :=
  Cert.LibLayout.matmul_rows_rows_apply dot_S1000x128_S256x128_S1000x256_1_1_0_0_n_n rfl rfl rfl rfl dotB0_l dotB0_r none l r p q

theorem dotA1_l (j : S2000x256.Idx) (k : dot_S2000x256_S256x256_S2000x256_1_1_0_0_n_n.contr.Idx) : (dot_S2000x256_S256x256_S2000x256_1_1_0_0_n_n.lhsIdx j k 0).val = (j 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem dotA1_r (j : S2000x256.Idx) (k : dot_S2000x256_S256x256_S2000x256_1_1_0_0_n_n.contr.Idx) : (dot_S2000x256_S256x256_S2000x256_1_1_0_0_n_n.rhsIdx j k 0).val = (j 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
/-- The product of rows with rows into the zero accumulator, at entry `(p, q)`. -/
theorem mmA1 {φ₁ φ₂ : FTy} (l : FVec Ideal S2000x256 φ₁) (r : FVec Ideal S256x256 φ₂) (p : Fin 2000) (q : Fin 256) :
    matmul dot_S2000x256_S256x256_S2000x256_1_1_0_0_n_n none l r (constant S2000x256 .f32 0x00000000#32) (ix2 p q) = ∑ k : Fin 256, l (ix2 p k) * r (ix2 q k) :=
  Cert.LibLayout.matmul_rows_rows_apply dot_S2000x256_S256x256_S2000x256_1_1_0_0_n_n rfl rfl rfl rfl dotA1_l dotA1_r none l r p q

theorem dotB1_l (j : S2000x256.Idx) (k : dot_S2000x128_S256x128_S2000x256_1_1_0_0_n_n.contr.Idx) : (dot_S2000x128_S256x128_S2000x256_1_1_0_0_n_n.lhsIdx j k 0).val = (j 0).val := by
  unfold DotDims.lhsIdx
  rw [dif_neg (show ¬(0 : Fin S2000x128.rank) ∈ dot_S2000x128_S256x128_S2000x256_1_1_0_0_n_n.lhsBatch by decide), dif_pos (show (0 : Fin S2000x128.rank) ∈ dot_S2000x128_S256x128_S2000x256_1_1_0_0_n_n.lhsNonContracting by decide)]
  rfl
theorem dotB1_r (j : S2000x256.Idx) (k : dot_S2000x128_S256x128_S2000x256_1_1_0_0_n_n.contr.Idx) : (dot_S2000x128_S256x128_S2000x256_1_1_0_0_n_n.rhsIdx j k 0).val = (j 1).val := by
  unfold DotDims.rhsIdx
  rw [dif_neg (show ¬(0 : Fin S256x128.rank) ∈ dot_S2000x128_S256x128_S2000x256_1_1_0_0_n_n.rhsBatch by decide), dif_pos (show (0 : Fin S256x128.rank) ∈ dot_S2000x128_S256x128_S2000x256_1_1_0_0_n_n.rhsNonContracting by decide)]
  rfl
/-- The product of rows with rows into the zero accumulator, at entry `(p, q)`. -/
theorem mmB1 {φ₁ φ₂ : FTy} (l : FVec Ideal S2000x128 φ₁) (r : FVec Ideal S256x128 φ₂) (p : Fin 2000) (q : Fin 256) :
    matmul dot_S2000x128_S256x128_S2000x256_1_1_0_0_n_n none l r (constant S2000x256 .f32 0x00000000#32) (ix2 p q) = ∑ k : Fin 128, l (ix2 p k) * r (ix2 q k) :=
  Cert.LibLayout.matmul_rows_rows_apply dot_S2000x128_S256x128_S2000x256_1_1_0_0_n_n rfl rfl rfl rfl dotB1_l dotB1_r none l r p q

/-! ## A column sum with the accumulator spelt as the bodies spell it -/

/-- The sum down the rows of a matrix of extended reals from the zero word, read at column `q`. -/
theorem sum_cols_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec 32) = 0x00000000#32) (q : Fin b) :
    multiReduction .add [0] ⟨1, ![b]⟩ src 0x00000000#32 h hφ hacc (ix1 q) = ∑ k : Fin a, src (ix2 k q) :=
  Cert.LibColSum.multiReduction_add_cols src 0x00000000#32 h hφ hacc q

/-! ## The rectified hidden block -/

/-- The statistics body's hidden block at `(p, q)`. -/
theorem pay5_apply (v3 : Vec Ideal S1000x256 .f32) (v5 : Vec Ideal S256x256 .f32) (v8 : Vec Ideal S1000x128 .f32)
    (v11 : Vec Ideal S256x128 .f32) (v14 : Vec Ideal S1000x1 .f32) (v17 v23 : Vec Ideal S1x256 .f32) (p : Fin 1000) (q : Fin 256) :
    k0_pay5 (F := Ideal) v3 v5 v8 v11 v14 v17 v23 (ix2 p q)
      = hrelu (m2 v3) (m2 v8) (col v14) (m2 v5) (m2 v11) (row v23) (row v17) p q := by
  unfold k0_pay5 hrelu
  simp only [shapeCast_self]
  rw [maximumf_apply, addf_apply, addf_apply, addf_apply, mulf_apply, mmA0, mmB0,
    Cert.LibLayout.broadcastTo_a1_ab_apply, broadcastTo_1b_ab_apply, broadcastTo_1b_ab_apply]
  rfl

/-- The column sums the statistics body adds to its first accumulator: at column `q`, the hidden block summed
    down its 1000 rows. -/
theorem pay6_apply (v3 : Vec Ideal S1000x256 .f32) (v5 : Vec Ideal S256x256 .f32) (v8 : Vec Ideal S1000x128 .f32)
    (v11 : Vec Ideal S256x128 .f32) (v14 : Vec Ideal S1000x1 .f32) (v17 v23 : Vec Ideal S1x256 .f32) (q : Fin 256) :
    k0_pay6 (F := Ideal) v3 v5 v8 v11 v14 v17 v23 (ix3 (0 : Fin 1) (0 : Fin 1) q)
      = ∑ p : Fin 1000, hrelu (m2 v3) (m2 v8) (col v14) (m2 v5) (m2 v11) (row v23) (row v17) p q := by
  unfold k0_pay6
  rw [shapeCast_ab_1ab_apply, shapeCast_a_1a_apply]
  refine (sum_cols_apply _ _ _ _ q).trans ?_
  exact Finset.sum_congr rfl fun p _ => pay5_apply v3 v5 v8 v11 v14 v17 v23 p q

/-- The column sums of squares it adds to its second accumulator. -/
theorem pay7_apply (v3 : Vec Ideal S1000x256 .f32) (v5 : Vec Ideal S256x256 .f32) (v8 : Vec Ideal S1000x128 .f32)
    (v11 : Vec Ideal S256x128 .f32) (v14 : Vec Ideal S1000x1 .f32) (v17 v23 : Vec Ideal S1x256 .f32) (q : Fin 256) :
    k0_pay7 (F := Ideal) v3 v5 v8 v11 v14 v17 v23 (ix3 (0 : Fin 1) (0 : Fin 1) q)
      = ∑ p : Fin 1000, hrelu (m2 v3) (m2 v8) (col v14) (m2 v5) (m2 v11) (row v23) (row v17) p q
          * hrelu (m2 v3) (m2 v8) (col v14) (m2 v5) (m2 v11) (row v23) (row v17) p q := by
  unfold k0_pay7
  rw [shapeCast_ab_1ab_apply, shapeCast_a_1a_apply]
  refine (sum_cols_apply _ _ _ _ q).trans ?_
  refine Finset.sum_congr rfl fun p _ => ?_
  rw [mulf_apply, pay5_apply]

/-! ## The finishing body -/

/-- The finishing body's first part at `(p, q)`: the hidden entry minus the mean, times the reciprocal root of the
    variance plus ε. -/
theorem k1_pay2_apply (v0 : Vec Ideal S2000x256 .f32) (v2 : Vec Ideal S256x256 .f32) (v5 : Vec Ideal S2000x128 .f32)
    (v8 : Vec Ideal S256x128 .f32) (v11 : Vec Ideal S2000x1 .f32) (v14 v20 v26 v31 : Vec Ideal S1x256 .f32)
    (p : Fin 2000) (q : Fin 256) :
    k1_pay2 (F := Ideal) v0 v2 v5 v8 v11 v14 v20 v26 v31 (ix2 p q)
      = (hrelu (m2 v0) (m2 v5) (col v11) (m2 v2) (m2 v8) (row v20) (row v14) p q - row v31 q)
          * Ideal.rsqrt (row v26 q + eps) := by
  unfold k1_pay2 hrelu
  simp only [shapeCast_self]
  rw [mulf_apply, subf_apply, maximumf_apply, addf_apply, addf_apply, addf_apply, mulf_apply, mmA1, mmB1,
    Cert.LibLayout.broadcastTo_a1_ab_apply, broadcastTo_1b_ab_apply, broadcastTo_1b_ab_apply, broadcastTo_1b_ab_apply,
    broadcastTo_1b_ab_apply]
  rfl

/-- The finishing body's stored block at `(p, q)`: the normalised hidden entry, scaled and shifted. -/
theorem k1_out_apply (v0 : Vec Ideal S2000x256 .f32) (v2 : Vec Ideal S256x256 .f32) (v5 : Vec Ideal S2000x128 .f32)
    (v8 : Vec Ideal S256x128 .f32) (v11 : Vec Ideal S2000x1 .f32) (v14 v20 v26 v31 v37 v41 : Vec Ideal S1x256 .f32)
    (p : Fin 2000) (q : Fin 256) :
    k1_pay1 (F := Ideal) (k1_pay2 v0 v2 v5 v8 v11 v14 v20 v26 v31) v37 v41 (ix2 p q)
      = fin (hrelu (m2 v0) (m2 v5) (col v11) (m2 v2) (m2 v8) (row v20) (row v14) p q) (row v31 q) (row v26 q)
          (row v37 q) (row v41 q) := by
  unfold k1_pay1 fin
  simp only [shapeCast_self]
  rw [addf_apply, mulf_apply, broadcastTo_1b_ab_apply, broadcastTo_1b_ab_apply, k1_pay2_apply]

end Cert.Payload

end
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.LibAggregate.lean ====
/-
  NEIGHBOURHOOD SUMS AND A MATRIX ON THE RIGHT, ON THE EXTENDED REALS.

  A neighbourhood sum is `z + ∑ e, if sel e then g e else 0`: the edges `e` selected by `sel` each contribute
  their message `g e`, the others nothing, on top of a start value `z`.

  * Dividing by a non-zero real `c` is multiplying by the quotient `1 / c`, for every extended real numerator
    (`div_eq_mul_one_div`): the mean of a neighbourhood may be taken by either spelling.
  * For REAL messages, a real matrix column `w` and a real scale `ρ`, aggregating first and multiplying by the
    matrix afterwards is multiplying every message by the matrix first and aggregating the products
    (`agg_mul_right`): ∑ d, ((∑ e, [sel e] g e d) · ρ) · w d = (∑ e, [sel e] (∑ d, g e d · w d)) · ρ.
    This is distributivity and an exchange of two finite sums, which hold among the reals and fail at the
    infinities; so the messages, the column and the scale are assumed real and the identity is proved in ℝ.
  * A finite sum of reals, read in the extended reals, is the sum of the readings (`coe_sum`).
-/
import Idealize.ShloMosaic.PureOps.Ideal
import Mathlib.Data.EReal.Basic

noncomputable section

open scoped BigOperators

namespace Cert.LibAggregate

open Idealize.ShloMosaic

/-- The reading of a finite real sum in the extended reals is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real or nothing, read in the extended reals. -/
theorem coe_ite_zero (p : Prop) [Decidable p] (a : ℝ) :
    (if p then (a : EReal) else 0) = ((if p then a else 0 : ℝ) : EReal) := by
  split_ifs
  · rfl
  · exact EReal.coe_zero.symm

/-- Dividing by a non-zero real is multiplying by its reciprocal, itself the quotient `1 / c`. -/
theorem div_eq_mul_one_div {c : ℝ} (hc : c ≠ 0) (y : EReal) :
    Ideal.div y (c : EReal) = y * Ideal.div 1 (c : EReal) := by
  rw [Ideal.div_coe hc, Ideal.div_coe hc, one_mul]

/-- Over the reals: scaling the aggregate of each column and then applying the matrix column is applying the
    matrix column to every selected message and scaling the aggregate of the results. -/
theorem agg_mul_right_real {E D : Type} [Fintype E] [Fintype D] (sel : E → Prop) [DecidablePred sel]
    (g : E → D → ℝ) (w : D → ℝ) (ρ : ℝ) :
    ∑ d, ((∑ e, if sel e then g e d else 0) * ρ) * w d
      = (∑ e, if sel e then (∑ d, g e d * w d) else 0) * ρ := by
  simp_rw [Finset.sum_mul]
  rw [Finset.sum_comm]
  refine Finset.sum_congr rfl fun e _ => ?_
  by_cases h : sel e
  · simp only [if_pos h]
    rw [Finset.sum_mul]
    exact Finset.sum_congr rfl fun d _ => by ring
  · simp only [if_neg h, zero_mul, Finset.sum_const_zero]

/-- The same on the extended reals, for real messages, a real matrix column and a real scale, from the start
    value zero. -/
theorem agg_mul_right {E D : Type} [Fintype E] [Fintype D] (sel : E → Prop) [DecidablePred sel]
    (g : E → D → EReal) (hg : ∀ e d, ∃ r : ℝ, g e d = (r : EReal))
    (w : D → EReal) (hw : ∀ d, ∃ r : ℝ, w d = (r : EReal)) (ρ : EReal) (hρ : ∃ r : ℝ, ρ = (r : EReal)) :
    ∑ d, ((0 + ∑ e, if sel e then g e d else 0) * ρ) * w d
      = (0 + ∑ e, if sel e then (∑ d, g e d * w d) else 0) * ρ := by
  choose g' hg' using hg
  choose w' hw' using hw
  obtain ⟨r, rfl⟩ := hρ
  simp only [zero_add, hg', hw', ← EReal.coe_mul, ← coe_sum, coe_ite_zero]
  exact congrArg (fun t : ℝ => (t : EReal)) (agg_mul_right_real sel g' w' r)

end Cert.LibAggregate

end
-- ==== Proof.Math.lean ====
/-
  The algebra that joins the two programs, over the reals and lifted to the extended reals for real-valued data.

  * Aggregating the projected edge features `∑ₖ w e k · Wb k + b` over the edges arriving at a node equals projecting
    the aggregated features and adding the edge bias once per arriving edge: the projection is linear, so
    `∑ₑ [e→n] (∑ₖ w e k · Wb k + b) = ∑ₖ (∑ₑ [e→n] w e k) · Wb k + (∑ₑ [e→n] 1) · b`.
  * A sum over 50000 rows is the sum over 50 consecutive blocks of 1000 rows.
  * The mean of the squared deviations from the mean is the mean of the squares minus the squared mean, and is
    non-negative, so clipping the latter below at zero changes nothing.
-/
import proofs.«118495_j41162966565588_2_alg».proof.Proof.Spec
import proofs.«118495_j41162966565588_2_alg».proof.Proof.LibReal
import proofs.«118495_j41162966565588_2_alg».proof.Proof.LibAggregate
import Mathlib.Algebra.BigOperators.Fin
import Mathlib.Tactic

noncomputable section

namespace Cert.Math

open Idealize.ShloMosaic Cert.Spec Cert.LibReal Cert.LibAggregate

/-! ## The edge aggregate is linear -/

theorem agg_linear_real {E K : Type} [Fintype E] [Fintype K] (sel : E → Prop) [DecidablePred sel]
    (wf : E → K → ℝ) (wb : K → ℝ) (b : ℝ) :
    ∑ e, (if sel e then (∑ k, wf e k * wb k + b) else 0)
      = ∑ k, (∑ e, if sel e then wf e k else 0) * wb k + (∑ e, if sel e then (1 : ℝ) else 0) * b := by
  have h : ∀ e, (if sel e then (∑ k, wf e k * wb k + b) else 0)
      = (∑ k, (if sel e then wf e k else 0) * wb k) + (if sel e then (1 : ℝ) else 0) * b := by
    intro e
    by_cases hs : sel e
    · simp only [if_pos hs, one_mul]
    · simp only [if_neg hs, zero_mul, Finset.sum_const_zero, add_zero]
  simp_rw [h, Finset.sum_add_distrib, Finset.sum_mul]
  rw [Finset.sum_comm]

/-- The same on the extended reals for real data, with the start value and the unit as the programs spell them
    (`z` the zero, `one` the unit), and the node term `a` and node bias `c` carried along: the two programs'
    pre-activations agree, hence their rectified values. -/
theorem hidden_eq {E K : Type} [Fintype E] [Fintype K] (sel : E → Prop) [DecidablePred sel]
    (wf : E → K → EReal) (hwf : ∀ e k, IsReal (wf e k)) (wb : K → EReal) (hwb : ∀ k, IsReal (wb k))
    (bb : EReal) (hbb : IsReal bb) (a : EReal) (ha : IsReal a) (c : EReal) (hc : IsReal c)
    (z one : EReal) (hz : z = 0) (hone : one = 1) :
    max ((((a + ∑ k, (z + ∑ e, if sel e then wf e k else 0) * wb k) + (z + ∑ e, if sel e then one else 0) * bb)) + c) z
      = max (((z + ∑ e, if sel e then (∑ k, wf e k * wb k + bb) else 0) + a) + c) z := by
  subst hz hone
  choose wf' hwf' using hwf
  choose wb' hwb' using hwb
  obtain ⟨bb', rfl⟩ := hbb
  obtain ⟨a', rfl⟩ := ha
  obtain ⟨c', rfl⟩ := hc
  have e1 : ((1 : EReal)) = ((1 : ℝ) : EReal) := rfl
  simp only [zero_add, hwf', hwb', e1, ← EReal.coe_mul, ← EReal.coe_add, ← coe_sum, coe_ite_zero]
  congr 1
  refine congrArg (fun t : ℝ => (t : EReal)) ?_
  rw [agg_linear_real sel wf' wb' bb']
  ring

/-! ## A sum over 50000 rows, block by block -/

/-- A function of a row below 50000, extended by zero to every natural number. -/
def ext0 (f : Fin 50000 → EReal) (n : ℕ) : EReal := if h : n < 50000 then f ⟨n, h⟩ else 0

theorem ext0_of_lt (f : Fin 50000 → EReal) (n : ℕ) (h : n < 50000) : ext0 f n = f ⟨n, h⟩ := dif_pos h

/-- The rows in blocks of 1000: block `s`, row `r` within it. -/
theorem sum_blocks (f : Fin 50000 → EReal) :
    ∑ n, f n = ∑ s ∈ Finset.range 50, ∑ r : Fin 1000, ext0 f (s * 1000 + r.val) := by
  rw [← Fin.sum_univ_eq_sum_range (fun s => ∑ r : Fin 1000, ext0 f (s * 1000 + r.val)) 50]
  rw [← Finset.sum_product']
  refine (Fintype.sum_equiv (finProdFinEquiv (m := 50) (n := 1000)).symm _ _ fun n => ?_)
  have hn := n.isLt
  have hv : ((finProdFinEquiv (m := 50) (n := 1000)).symm n).1.val * 1000 + ((finProdFinEquiv (m := 50) (n := 1000)).symm n).2.val = n.val := by
    simp only [finProdFinEquiv_symm_apply, Fin.coe_divNat, Fin.coe_modNat]
    have := Nat.div_add_mod n.val 1000
    omega
  rw [hv, ext0_of_lt f n.val n.isLt]

/-- Two runs of 25 blocks are the 50 blocks. -/
theorem sum_two_runs (g : ℕ → EReal) :
    (∑ s ∈ Finset.range 25, g (0 + s)) + (∑ s ∈ Finset.range 25, g (25 + s)) = ∑ s ∈ Finset.range 50, g s := by
  rw [show (50 : ℕ) = 25 + 25 from rfl, Finset.sum_range_add]
  simp only [zero_add]

/-! ## The two cores' run totals are the whole column sum -/

theorem two_runs (g : ℕ → EReal) :
    (∑ s ∈ Finset.Icc 0 24, g s) + (∑ s ∈ Finset.Icc 25 49, g s) = ∑ s ∈ Finset.range 50, g s := by
  rw [← Finset.sum_union (Finset.disjoint_left.mpr fun x h1 h2 => by
    simp only [Finset.mem_Icc] at h1 h2; omega)]
  refine Finset.sum_congr ?_ fun _ _ => rfl
  ext x
  simp only [Finset.mem_union, Finset.mem_Icc, Finset.mem_range]
  omega

/-- Zero plus the two cores' totals (each zero plus its 25 points' block sums) is zero plus the sum over all rows. -/
theorem totals_sum (f : Fin 50000 → EReal) (z : EReal) (hz : z = 0) :
    z + ((z + ∑ s ∈ Finset.Icc 0 24, ∑ r : Fin 1000, ext0 f (s * 1000 + r.val))
        + (z + ∑ s ∈ Finset.Icc 25 49, ∑ r : Fin 1000, ext0 f (s * 1000 + r.val)))
      = z + ∑ n, f n := by
  subst hz
  simp only [zero_add]
  rw [two_runs (fun s => ∑ r : Fin 1000, ext0 f (s * 1000 + r.val)), sum_blocks]

/-! ## Mean and variance -/

theorem var_real {N : ℕ} (hN : 0 < N) (f : Fin N → ℝ) :
    (∑ n, (f n - (∑ n, f n) * (1 / (N : ℝ))) * (f n - (∑ n, f n) * (1 / (N : ℝ)))) * (1 / (N : ℝ))
      = (∑ n, f n * f n) * (1 / (N : ℝ)) - ((∑ n, f n) * (1 / (N : ℝ))) * ((∑ n, f n) * (1 / (N : ℝ))) := by
  have hN' : (N : ℝ) ≠ 0 := by exact_mod_cast hN.ne'
  set μ := (∑ n, f n) * (1 / (N : ℝ)) with hμ
  have h : ∀ n, (f n - μ) * (f n - μ) = f n * f n - 2 * μ * f n + μ * μ := fun n => by ring
  simp_rw [h, Finset.sum_add_distrib, Finset.sum_sub_distrib, ← Finset.mul_sum, Finset.sum_const, Finset.card_univ,
    Fintype.card_fin, nsmul_eq_mul]
  have hS : (∑ n, f n) = μ * N := by rw [hμ]; field_simp
  rw [hS]
  field_simp
  ring

theorem var_real_nonneg {N : ℕ} (f : Fin N → ℝ) (μ : ℝ) :
    0 ≤ (∑ n, (f n - μ) * (f n - μ)) * (1 / (N : ℝ)) :=
  mul_nonneg (Finset.sum_nonneg fun n _ => mul_self_nonneg _) (by positivity)

/-- On the extended reals, for a real column `f` of 50000 entries, with the divisor `cN` the real 50000 and the start
    value `z` zero: the clipped "mean of squares minus squared mean" is the mean of the squared deviations. -/
theorem var_eq (f : Fin 50000 → EReal) (hf : ∀ n, IsReal (f n)) (z cN : EReal) (hz : z = 0)
    (hcN : cN = ((50000 : ℝ) : EReal)) :
    max (Ideal.div (z + ∑ n, f n * f n) cN - Ideal.div (z + ∑ n, f n) cN * Ideal.div (z + ∑ n, f n) cN) z
      = Ideal.div (z + ∑ n, (f n - Ideal.div (z + ∑ n, f n) cN) * (f n - Ideal.div (z + ∑ n, f n) cN)) cN := by
  subst hz hcN
  choose f' hf' using hf
  have h5 : (50000 : ℝ) ≠ 0 := by norm_num
  have hc : ((50000 : ℕ) : ℝ) = 50000 := by norm_num
  simp only [zero_add, hf', Ideal.div_coe h5, ← EReal.coe_mul, ← EReal.coe_sub, ← coe_sum]
  have hv := var_real (N := 50000) (by norm_num) f'
  have hn := var_real_nonneg (N := 50000) f' ((∑ n, f' n) * (1 / (50000 : ℝ)))
  rw [hc] at hv hn
  rw [← hv, show (0 : EReal) = ((0 : ℝ) : EReal) from rfl]
  exact max_eq_left (EReal.coe_le_coe_iff.mpr hn)

end Cert.Math

end
-- ==== Proof.Stats.lean ====
/-
  The statistics region, point by point.

  Its two outputs are accumulators carried across the 25 points of a core's run: at the run's first point each is
  reset to zero and then the point's column sums (of the rectified hidden block, and of its square) are added; at
  every later point the column sums are added to what the point before left. So after point `n` an accumulator
  holds zero plus the column sums of the points from the start of `n`'s run up to `n`, and the block written back
  at the run's last point is the run's total.
-/
import proofs.«118495_j41162966565588_2_alg».proof.Proof.Gen.KernelIdeal.Frame
import proofs.«118495_j41162966565588_2_alg».proof.Proof.Payload
import proofs.«118495_j41162966565588_2_alg».proof.Proof.Math
import Idealize.ShloMosaic.Lib.Pipeline.Value
import Idealize.ShloMosaic.Lib.Tactic

set_option maxRecDepth 16384

noncomputable section

namespace Cert.Stats

open Cert.KernelIdeal Cert.KernelIdeal.Gen Cert.Spec
open Idealize.ShloMosaic Idealize.ShloMosaic.TcCoe Idealize.SL.Sem Idealize.ShloMosaic.Tactic Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable {F : FTy → Type} [FloatOps F]

/-- A later point leaves, in the first accumulator holding `xo7`, `xo7` plus the point's column sums. -/
theorem out_B_7 (c : Dev nD) (i : grid0.Coords) (arg2 : Memref sig .tc .vmem S1000x256 .f32) (harg2 : arg2.IsWhole) (arg3 : Memref sig .tc .vmem S1000x128 .f32) (harg3 : arg3.IsWhole) (arg4 : Memref sig .tc .vmem S1000x1 .f32) (harg4 : arg4.IsWhole) (arg5 : Memref sig .tc .vmem S256x256 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1x256 .f32) (harg9 : arg9.IsWhole) (arg10 : Memref sig .tc .vmem S1x1x256 .f32) (harg10 : arg10.IsWhole) (hc : ¬cond0_0 i) (x0 : Vec F S1000x256 .f32) (x1 : Vec F S1000x128 .f32) (x2 : Vec F S1000x1 .f32) (x3 : Vec F S256x256 .f32) (x4 : Vec F S256x128 .f32) (x5 : Vec F S1x256 .f32) (x6 : Vec F S1x256 .f32) (xo7 xo8 : Vec F S1x1x256 .f32) :
    out0_B_7 c i arg2 harg2 arg3 harg3 arg4 harg4 arg5 harg5 arg6 harg6 arg7 harg7 arg8 harg8 arg9 harg9 arg10 harg10 hc x0 x1 x2 x3 x4 x5 x6 xo7 xo8 = k0_pay1 (k0_pay6 x0 x3 x1 x4 x2 x6 x5) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc x0 x1 x2 x3 x4 x5 x6 xo7 xo8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1000x256) hz2, View.ld_unit_zero (S := S256x256) hz2, View.ld_unit_zero (S := S1000x128) hz2, View.ld_unit_zero (S := S256x128) hz2, View.ld_unit_zero (S := S1000x1) hz2, View.ld_unit_zero (S := S1x256) hz2, View.ld_unit_zero (S := S1x1x256) hz3]

/-- and in the second, holding `xo8`, `xo8` plus the column sums of squares. -/
theorem out_B_8 (c : Dev nD) (i : grid0.Coords) (arg2 : Memref sig .tc .vmem S1000x256 .f32) (harg2 : arg2.IsWhole) (arg3 : Memref sig .tc .vmem S1000x128 .f32) (harg3 : arg3.IsWhole) (arg4 : Memref sig .tc .vmem S1000x1 .f32) (harg4 : arg4.IsWhole) (arg5 : Memref sig .tc .vmem S256x256 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1x256 .f32) (harg9 : arg9.IsWhole) (arg10 : Memref sig .tc .vmem S1x1x256 .f32) (harg10 : arg10.IsWhole) (hc : ¬cond0_0 i) (x0 : Vec F S1000x256 .f32) (x1 : Vec F S1000x128 .f32) (x2 : Vec F S1000x1 .f32) (x3 : Vec F S256x256 .f32) (x4 : Vec F S256x128 .f32) (x5 : Vec F S1x256 .f32) (x6 : Vec F S1x256 .f32) (xo7 xo8 : Vec F S1x1x256 .f32) :
    out0_B_8 c i arg2 harg2 arg3 harg3 arg4 harg4 arg5 harg5 arg6 harg6 arg7 harg7 arg8 harg8 arg9 harg9 arg10 harg10 hc x0 x1 x2 x3 x4 x5 x6 xo7 xo8 = k0_pay2 (k0_pay7 x0 x3 x1 x4 x2 x6 x5) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc x0 x1 x2 x3 x4 x5 x6 xo7 xo8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1000x256) hz2, View.ld_unit_zero (S := S256x256) hz2, View.ld_unit_zero (S := S1000x128) hz2, View.ld_unit_zero (S := S256x128) hz2, View.ld_unit_zero (S := S1000x1) hz2, View.ld_unit_zero (S := S1x256) hz2, View.ld_unit_zero (S := S1x1x256) hz3]

/-- A run's first point stores the zero block, reads it back, and leaves zero plus the point's column sums. -/
theorem out_A_7 (c : Dev nD) (i : grid0.Coords) (arg2 : Memref sig .tc .vmem S1000x256 .f32) (harg2 : arg2.IsWhole) (arg3 : Memref sig .tc .vmem S1000x128 .f32) (harg3 : arg3.IsWhole) (arg4 : Memref sig .tc .vmem S1000x1 .f32) (harg4 : arg4.IsWhole) (arg5 : Memref sig .tc .vmem S256x256 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1x256 .f32) (harg9 : arg9.IsWhole) (arg10 : Memref sig .tc .vmem S1x1x256 .f32) (harg10 : arg10.IsWhole) (hc : cond0_0 i) (x0 : Vec F S1000x256 .f32) (x1 : Vec F S1000x128 .f32) (x2 : Vec F S1000x1 .f32) (x3 : Vec F S256x256 .f32) (x4 : Vec F S256x128 .f32) (x5 : Vec F S1x256 .f32) (x6 : Vec F S1x256 .f32) :
    out0_A_7 c i arg2 harg2 arg3 harg3 arg4 harg4 arg5 harg5 arg6 harg6 arg7 harg7 arg8 harg8 arg9 harg9 arg10 harg10 hc x0 x1 x2 x3 x4 x5 x6 = k0_pay1 (k0_pay6 x0 x3 x1 x4 x2 x6 x5) k0_pay3 := by
  unfold out0_A_7
  rw [View.read_writes_eq_canon _ _ _ (cover0_A_7 c i arg2 harg2 arg3 harg3 arg4 harg4 arg5 harg5 arg6 harg6 arg7 harg7 arg8 harg8 arg9 harg9 arg10 harg10 hc x0 x1 x2 x3 x4 x5 x6)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, View.ld_unit_zero (S := S1000x256) hz2, View.ld_unit_zero (S := S256x256) hz2, View.ld_unit_zero (S := S1000x128) hz2, View.ld_unit_zero (S := S256x128) hz2, View.ld_unit_zero (S := S1000x1) hz2, View.ld_unit_zero (S := S1x256) hz2, View.ld_unit_zero (S := S1x1x256) hz3]

theorem out_A_8 (c : Dev nD) (i : grid0.Coords) (arg2 : Memref sig .tc .vmem S1000x256 .f32) (harg2 : arg2.IsWhole) (arg3 : Memref sig .tc .vmem S1000x128 .f32) (harg3 : arg3.IsWhole) (arg4 : Memref sig .tc .vmem S1000x1 .f32) (harg4 : arg4.IsWhole) (arg5 : Memref sig .tc .vmem S256x256 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1x256 .f32) (harg9 : arg9.IsWhole) (arg10 : Memref sig .tc .vmem S1x1x256 .f32) (harg10 : arg10.IsWhole) (hc : cond0_0 i) (x0 : Vec F S1000x256 .f32) (x1 : Vec F S1000x128 .f32) (x2 : Vec F S1000x1 .f32) (x3 : Vec F S256x256 .f32) (x4 : Vec F S256x128 .f32) (x5 : Vec F S1x256 .f32) (x6 : Vec F S1x256 .f32) :
    out0_A_8 c i arg2 harg2 arg3 harg3 arg4 harg4 arg5 harg5 arg6 harg6 arg7 harg7 arg8 harg8 arg9 harg9 arg10 harg10 hc x0 x1 x2 x3 x4 x5 x6 = k0_pay2 (k0_pay7 x0 x3 x1 x4 x2 x6 x5) k0_pay4 := by
  unfold out0_A_8
  rw [View.read_writes_eq_canon _ _ _ (cover0_A_8 c i arg2 harg2 arg3 harg3 arg4 harg4 arg5 harg5 arg6 harg6 arg7 harg7 arg8 harg8 arg9 harg9 arg10 harg10 hc x0 x1 x2 x3 x4 x5 x6)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread, harg9.read_unread, harg10.read_unread, View.ld_unit_zero (S := S1000x256) hz2, View.ld_unit_zero (S := S256x256) hz2, View.ld_unit_zero (S := S1000x128) hz2, View.ld_unit_zero (S := S256x128) hz2, View.ld_unit_zero (S := S1000x1) hz2, View.ld_unit_zero (S := S1x256) hz2, View.ld_unit_zero (S := S1x1x256) hz3]

end Pieces

/-! ## The accumulators, point by point (at the extended reals) -/

section Chain

variable (V : (c : Dev nD) → (b : Ref sig .tc) → Buf (Elt Ideal) ((c : Thread nD τ).loc b)) (c : Dev nD)

/-- The accumulating store's value at an entry: what was held plus the addend. -/
theorem pay_add_apply (v31 v36 : Vec Ideal S1x1x256 .f32) (j : S1x1x256.Idx) :
    k0_pay1 (F := Ideal) v31 v36 j = v36 j + v31 j := by
  unfold k0_pay1
  simp only [shapeCast_self]
  rfl
theorem pay_add_apply' (v35 v40 : Vec Ideal S1x1x256 .f32) (j : S1x1x256.Idx) :
    k0_pay2 (F := Ideal) v35 v40 j = v40 j + v35 j := by
  unfold k0_pay2
  simp only [shapeCast_self]
  rfl

/-- The first accumulator at a run's first point. -/
theorem fst_A (t : Fin cfg0.N) (hA : t.val % 25 = 0) :
    (outsAt0 V c t.val t.isLt).1 = k0_pay1 (F := Ideal) (k0_pay6 (iblk0 V c 0 t) (iblk0 V c 3 t) (iblk0 V c 1 t) (iblk0 V c 4 t) (iblk0 V c 2 t) (iblk0 V c 6 t) (iblk0 V c 5 t)) (k0_pay3 (F := Ideal)) :=
  by
  rw [outsAt0_A V c t hA]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr hA) (iblk0 V c 0 t) (iblk0 V c 1 t) (iblk0 V c 2 t) (iblk0 V c 3 t) (iblk0 V c 4 t) (iblk0 V c 5 t) (iblk0 V c 6 t)

/-- and at a later point of the run. -/
theorem fst_B (t : Fin cfg0.N) (hB : ¬t.val % 25 = 0) :
    (outsAt0 V c t.val t.isLt).1 = k0_pay1 (F := Ideal) (k0_pay6 (iblk0 V c 0 t) (iblk0 V c 3 t) (iblk0 V c 1 t) (iblk0 V c 4 t) (iblk0 V c 2 t) (iblk0 V c 6 t) (iblk0 V c 5 t))
      (outsAt0 V c (t.val - 1) (Nat.lt_of_le_of_lt (Nat.sub_le _ _) t.isLt)).1 :=
  by
  rw [outsAt0_B V c t hB]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => hB ((hcond0_0 t).mp h)) (iblk0 V c 0 t) (iblk0 V c 1 t) (iblk0 V c 2 t) (iblk0 V c 3 t) (iblk0 V c 4 t) (iblk0 V c 5 t) (iblk0 V c 6 t)
      (outsAt0 V c (t.val - 1) (Nat.lt_of_le_of_lt (Nat.sub_le _ _) t.isLt)).1 (outsAt0 V c (t.val - 1) (Nat.lt_of_le_of_lt (Nat.sub_le _ _) t.isLt)).2

/-- After point `n` the accumulator holds zero plus the addends of the points from the start of `n`'s run to `n`. -/
theorem acc7 (A : ℕ → Fin 256 → EReal)
    (hA : ∀ (t : Fin cfg0.N) (q : Fin 256), k0_pay6 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = A t.val q) :
    ∀ (n : ℕ) (hn : n < cfg0.N) (q : Fin 256),
      (outsAt0 V c n hn).1 (ix3 (0 : Fin 1) (0 : Fin 1) q) = z32 + ∑ s ∈ Finset.Icc (25 * (n / 25)) n, A s q
  | 0, hn, q => by
    rw [fst_A V c ⟨0, hn⟩ rfl, pay_add_apply, hA ⟨0, hn⟩ q]
    show z32 + A 0 q = _
    rw [show 25 * (0 / 25) = 0 from rfl, Finset.Icc_self, Finset.sum_singleton]
  | n + 1, hn, q => by
    by_cases h0 : (n + 1) % 25 = 0
    · rw [fst_A V c ⟨n + 1, hn⟩ h0, pay_add_apply, hA ⟨n + 1, hn⟩ q]
      have e : 25 * ((n + 1) / 25) = n + 1 := by omega
      show z32 + A (n + 1) q = _
      rw [e, Finset.Icc_self, Finset.sum_singleton]
    · rw [fst_B V c ⟨n + 1, hn⟩ h0, pay_add_apply, hA ⟨n + 1, hn⟩ q]
      have ih := acc7 A hA n (Nat.lt_of_succ_lt hn) q
      have hd : (n + 1) / 25 = n / 25 := by omega
      show (outsAt0 V c n _).1 _ + A (n + 1) q = _
      rw [ih, hd, Finset.sum_Icc_succ_top (by omega), add_assoc]

/-- The second accumulator at a run's first point. -/
theorem snd_A (t : Fin cfg0.N) (hA : t.val % 25 = 0) :
    (outsAt0 V c t.val t.isLt).2 = k0_pay2 (F := Ideal) (k0_pay7 (iblk0 V c 0 t) (iblk0 V c 3 t) (iblk0 V c 1 t) (iblk0 V c 4 t) (iblk0 V c 2 t) (iblk0 V c 6 t) (iblk0 V c 5 t)) (k0_pay4 (F := Ideal)) :=
  by
  rw [outsAt0_A V c t hA]
  dsimp only
  exact out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr hA) (iblk0 V c 0 t) (iblk0 V c 1 t) (iblk0 V c 2 t) (iblk0 V c 3 t) (iblk0 V c 4 t) (iblk0 V c 5 t) (iblk0 V c 6 t)

/-- and at a later point of the run. -/
theorem snd_B (t : Fin cfg0.N) (hB : ¬t.val % 25 = 0) :
    (outsAt0 V c t.val t.isLt).2 = k0_pay2 (F := Ideal) (k0_pay7 (iblk0 V c 0 t) (iblk0 V c 3 t) (iblk0 V c 1 t) (iblk0 V c 4 t) (iblk0 V c 2 t) (iblk0 V c 6 t) (iblk0 V c 5 t))
      (outsAt0 V c (t.val - 1) (Nat.lt_of_le_of_lt (Nat.sub_le _ _) t.isLt)).2 :=
  by
  rw [outsAt0_B V c t hB]
  dsimp only
  exact out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => hB ((hcond0_0 t).mp h)) (iblk0 V c 0 t) (iblk0 V c 1 t) (iblk0 V c 2 t) (iblk0 V c 3 t) (iblk0 V c 4 t) (iblk0 V c 5 t) (iblk0 V c 6 t)
      (outsAt0 V c (t.val - 1) (Nat.lt_of_le_of_lt (Nat.sub_le _ _) t.isLt)).1 (outsAt0 V c (t.val - 1) (Nat.lt_of_le_of_lt (Nat.sub_le _ _) t.isLt)).2

/-- After point `n` the accumulator holds zero plus the addends of the points from the start of `n`'s run to `n`. -/
theorem acc8 (A : ℕ → Fin 256 → EReal)
    (hA : ∀ (t : Fin cfg0.N) (q : Fin 256), k0_pay7 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = A t.val q) :
    ∀ (n : ℕ) (hn : n < cfg0.N) (q : Fin 256),
      (outsAt0 V c n hn).2 (ix3 (0 : Fin 1) (0 : Fin 1) q) = z32 + ∑ s ∈ Finset.Icc (25 * (n / 25)) n, A s q
  | 0, hn, q => by
    rw [snd_A V c ⟨0, hn⟩ rfl, pay_add_apply', hA ⟨0, hn⟩ q]
    show z32 + A 0 q = _
    rw [show 25 * (0 / 25) = 0 from rfl, Finset.Icc_self, Finset.sum_singleton]
  | n + 1, hn, q => by
    by_cases h0 : (n + 1) % 25 = 0
    · rw [snd_A V c ⟨n + 1, hn⟩ h0, pay_add_apply', hA ⟨n + 1, hn⟩ q]
      have e : 25 * ((n + 1) / 25) = n + 1 := by omega
      show z32 + A (n + 1) q = _
      rw [e, Finset.Icc_self, Finset.sum_singleton]
    · rw [snd_B V c ⟨n + 1, hn⟩ h0, pay_add_apply', hA ⟨n + 1, hn⟩ q]
      have ih := acc8 A hA n (Nat.lt_of_succ_lt hn) q
      have hd : (n + 1) / 25 = n / 25 := by omega
      show (outsAt0 V c n _).2 _ + A (n + 1) q = _
      rw [ih, hd, Finset.sum_Icc_succ_top (by omega), add_assoc]

end Chain

/-! ## The written-back arrays of run totals -/

section Totals

variable (V : (c : Dev nD) → (b : Ref sig .tc) → Buf (Elt Ideal) ((c : Thread nD τ).loc b)) (c : Dev nD)

/-- The accumulators' block index is the run's number (the core), decided over the grid. -/
theorem idx7 : ∀ t : Fin cfg0.N, win0_7.index t (0 : Fin 3) = t.val / 25 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 25 ∧ win0_8.index t (1 : Fin 3) = 0 ∧ win0_8.index t (2 : Fin 3) = 0 :=
  (by decide +kernel : ∀ t : Fin grid0.N, _)

/-- The array of run totals of per-point addends `A`: at `(r, 0, q)`, zero plus the addends of run `r`'s 25 points. -/
def tot (A : ℕ → Fin 256 → EReal) : S2x1x256.Idx → EReal :=
  fun i => z32 + ∑ s ∈ Finset.Icc (25 * (i 0).val) (25 * (i 0).val + 24), A s (i 2)

/-- Point `t` writes back, at a run's last point, the run's total into block `t / 25` of the array. -/
theorem flushed7_eq (A : ℕ → Fin 256 → EReal)
    (hA : ∀ (t : Fin cfg0.N) (q : Fin 256), k0_pay6 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = A t.val q)
    (t : Fin cfg0.N) (hf : (cfg0.win 7).flush t = true) :
    (dat0 V c).flushed 7 t = ((cfg0.win 7).blk t).view.read (Elt Ideal) (tot A) := by
  have h24 : t.val % 25 = 24 := (flush0_7 t).mp hf
  obtain ⟨e0, e1, e2⟩ := idx7 t
  show (cfg0.win 7).cut (grid0.coords t) ((dat0 V c).after 7 t) = _
  rw [after0_7]
  funext j
  obtain ⟨q, rfl⟩ : ∃ q : Fin 256, j = ix3 (0 : Fin 1) (0 : Fin 1) q :=
    ⟨j 2, (eq_ix3 j).trans (by rw [Fin.eq_zero (j 0), Fin.eq_zero (j 1)]; rfl)⟩
  show (outsAt0 V c t.val t.isLt).1 (ix3 (0 : Fin 1) (0 : Fin 1) q) = tot A (((cfg0.win 7).blk t).view.emb (ix3 (0 : Fin 1) (0 : Fin 1) q))
  rw [acc7 V c A hA t.val t.isLt q]
  unfold tot
  have c0 : ((((cfg0.win 7).blk t).view.emb (ix3 (0 : Fin 1) (0 : Fin 1) q)) 0).val = t.val / 25 := by
    show win0_7.index t (0 : Fin 3) * 1 + 1 * 0 = t.val / 25
    omega
  have c2 : (((cfg0.win 7).blk t).view.emb (ix3 (0 : Fin 1) (0 : Fin 1) q)) 2 = q := Fin.ext (by
    show win0_7.index t (2 : Fin 3) * 256 + 1 * q.val = q.val
    omega)
  rw [c0, c2, show 25 * (t.val / 25) + 24 = t.val by omega]

/-- So the array ends holding every run's total. -/
theorem final7 (A : ℕ → Fin 256 → EReal)
    (hA : ∀ (t : Fin cfg0.N) (q : Fin 256), k0_pay6 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = A t.val q) :
    (dat0 V c).arrAt 7 cfg0.N = tot A :=
  (dat0 V c).arrAt_eq_of_cover 7 (tot A) (flushed7_eq V c A hA) fun i => by
    have hi0 : (i 0).val < 2 := (i 0).isLt
    have hi1 : (i 1).val < 1 := (i 1).isLt
    have hi2 : (i 2).val < 256 := (i 2).isLt
    have hN : cfg0.N = 50 := N_0
    have hlt : 25 * (i 0).val + 24 < cfg0.N := by rw [hN]; omega
    obtain ⟨e0, e1, e2⟩ := idx7 ⟨25 * (i 0).val + 24, hlt⟩
    refine ⟨⟨25 * (i 0).val + 24, hlt⟩, (flush0_7 _).mpr (by show (25 * (i 0).val + 24) % 25 = 24; omega), ?_⟩
    show i ∈ ((View.whole main_v10_0).slice (win0_7.rect ⟨25 * (i 0).val + 24, hlt⟩)).set
    rw [View.set_slice_whole, Rect.mem_set_unit]
    intro a
    match a with
    | ⟨0, _⟩ =>
      show win0_7.index ⟨25 * (i 0).val + 24, hlt⟩ (0 : Fin 3) * 1 ≤ (i 0).val ∧ (i 0).val < win0_7.index ⟨25 * (i 0).val + 24, hlt⟩ (0 : Fin 3) * 1 + 1
      rw [e0]; dsimp only; omega
    | ⟨1, _⟩ =>
      show win0_7.index ⟨25 * (i 0).val + 24, hlt⟩ (1 : Fin 3) * 1 ≤ (i 1).val ∧ (i 1).val < win0_7.index ⟨25 * (i 0).val + 24, hlt⟩ (1 : Fin 3) * 1 + 1
      rw [e1]; omega
    | ⟨2, _⟩ =>
      show win0_7.index ⟨25 * (i 0).val + 24, hlt⟩ (2 : Fin 3) * 256 ≤ (i 2).val ∧ (i 2).val < win0_7.index ⟨25 * (i 0).val + 24, hlt⟩ (2 : Fin 3) * 256 + 256
      rw [e2]; omega

/-- Point `t` writes back, at a run's last point, the run's total into block `t / 25` of the array. -/
theorem flushed8_eq (A : ℕ → Fin 256 → EReal)
    (hA : ∀ (t : Fin cfg0.N) (q : Fin 256), k0_pay7 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = A t.val q)
    (t : Fin cfg0.N) (hf : (cfg0.win 8).flush t = true) :
    (dat0 V c).flushed 8 t = ((cfg0.win 8).blk t).view.read (Elt Ideal) (tot A) := by
  have h24 : t.val % 25 = 24 := (flush0_8 t).mp hf
  obtain ⟨e0, e1, e2⟩ := idx8 t
  show (cfg0.win 8).cut (grid0.coords t) ((dat0 V c).after 8 t) = _
  rw [after0_8]
  funext j
  obtain ⟨q, rfl⟩ : ∃ q : Fin 256, j = ix3 (0 : Fin 1) (0 : Fin 1) q :=
    ⟨j 2, (eq_ix3 j).trans (by rw [Fin.eq_zero (j 0), Fin.eq_zero (j 1)]; rfl)⟩
  show (outsAt0 V c t.val t.isLt).2 (ix3 (0 : Fin 1) (0 : Fin 1) q) = tot A (((cfg0.win 8).blk t).view.emb (ix3 (0 : Fin 1) (0 : Fin 1) q))
  rw [acc8 V c A hA t.val t.isLt q]
  unfold tot
  have c0 : ((((cfg0.win 8).blk t).view.emb (ix3 (0 : Fin 1) (0 : Fin 1) q)) 0).val = t.val / 25 := by
    show win0_8.index t (0 : Fin 3) * 1 + 1 * 0 = t.val / 25
    omega
  have c2 : (((cfg0.win 8).blk t).view.emb (ix3 (0 : Fin 1) (0 : Fin 1) q)) 2 = q := Fin.ext (by
    show win0_8.index t (2 : Fin 3) * 256 + 1 * q.val = q.val
    omega)
  rw [c0, c2, show 25 * (t.val / 25) + 24 = t.val by omega]

/-- So the array ends holding every run's total. -/
theorem final8 (A : ℕ → Fin 256 → EReal)
    (hA : ∀ (t : Fin cfg0.N) (q : Fin 256), k0_pay7 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = A t.val q) :
    (dat0 V c).arrAt 8 cfg0.N = tot A :=
  (dat0 V c).arrAt_eq_of_cover 8 (tot A) (flushed8_eq V c A hA) fun i => by
    have hi0 : (i 0).val < 2 := (i 0).isLt
    have hi1 : (i 1).val < 1 := (i 1).isLt
    have hi2 : (i 2).val < 256 := (i 2).isLt
    have hN : cfg0.N = 50 := N_0
    have hlt : 25 * (i 0).val + 24 < cfg0.N := by rw [hN]; omega
    obtain ⟨e0, e1, e2⟩ := idx8 ⟨25 * (i 0).val + 24, hlt⟩
    refine ⟨⟨25 * (i 0).val + 24, hlt⟩, (flush0_8 _).mpr (by show (25 * (i 0).val + 24) % 25 = 24; omega), ?_⟩
    show i ∈ ((View.whole main_v10_1).slice (win0_8.rect ⟨25 * (i 0).val + 24, hlt⟩)).set
    rw [View.set_slice_whole, Rect.mem_set_unit]
    intro a
    match a with
    | ⟨0, _⟩ =>
      show win0_8.index ⟨25 * (i 0).val + 24, hlt⟩ (0 : Fin 3) * 1 ≤ (i 0).val ∧ (i 0).val < win0_8.index ⟨25 * (i 0).val + 24, hlt⟩ (0 : Fin 3) * 1 + 1
      rw [e0]; dsimp only; omega
    | ⟨1, _⟩ =>
      show win0_8.index ⟨25 * (i 0).val + 24, hlt⟩ (1 : Fin 3) * 1 ≤ (i 1).val ∧ (i 1).val < win0_8.index ⟨25 * (i 0).val + 24, hlt⟩ (1 : Fin 3) * 1 + 1
      rw [e1]; omega
    | ⟨2, _⟩ =>
      show win0_8.index ⟨25 * (i 0).val + 24, hlt⟩ (2 : Fin 3) * 256 ≤ (i 2).val ∧ (i 2).val < win0_8.index ⟨25 * (i 0).val + 24, hlt⟩ (2 : Fin 3) * 256 + 256
      rw [e2]; omega

end Totals

/-! ## The windows' blocks, by coordinates -/

section Blocks

variable (V : (c : Dev nD) → (b : Ref sig .tc) → Buf (Elt Ideal) ((c : Thread nD τ).loc b)) (c : Dev nD)

/-- Row `p` of point `t`'s block is row `1000 t + p` of the array. -/
def rowOf0 (t : Fin cfg0.N) (p : Fin 1000) : Fin 50000 :=
  ⟨t.val * 1000 + p.val, by have h : t.val < 50 := lt_of_lt_of_eq t.isLt (show cfg0.N = 50 from N_0); have := p.isLt; omega⟩

theorem idxIn0_0 : ∀ t : Fin cfg0.N, win0_0.index t (0 : Fin 2) = t.val ∧ win0_0.index t (1 : Fin 2) = 0 :=
  (by decide +kernel : ∀ t : Fin grid0.N, _)

theorem idxIn0_1 : ∀ t : Fin cfg0.N, win0_1.index t (0 : Fin 2) = t.val ∧ win0_1.index t (1 : Fin 2) = 0 :=
  (by decide +kernel : ∀ t : Fin grid0.N, _)

theorem idxIn0_2 : ∀ t : Fin cfg0.N, win0_2.index t (0 : Fin 2) = t.val ∧ win0_2.index t (1 : Fin 2) = 0 :=
  (by decide +kernel : ∀ t : Fin grid0.N, _)

theorem idxIn0_3 : ∀ t : Fin cfg0.N, win0_3.index t (0 : Fin 2) = 0 ∧ win0_3.index t (1 : Fin 2) = 0 :=
  (by decide +kernel : ∀ t : Fin grid0.N, _)

theorem idxIn0_4 : ∀ t : Fin cfg0.N, win0_4.index t (0 : Fin 2) = 0 ∧ win0_4.index t (1 : Fin 2) = 0 :=
  (by decide +kernel : ∀ t : Fin grid0.N, _)

theorem idxIn0_5 : ∀ t : Fin cfg0.N, win0_5.index t (0 : Fin 2) = 0 ∧ win0_5.index t (1 : Fin 2) = 0 :=
  (by decide +kernel : ∀ t : Fin grid0.N, _)

theorem idxIn0_6 : ∀ t : Fin cfg0.N, win0_6.index t (0 : Fin 2) = 0 ∧ win0_6.index t (1 : Fin 2) = 0 :=
  (by decide +kernel : ∀ t : Fin grid0.N, _)

theorem blk0_0 (t : Fin cfg0.N) : m2 (a := 1000) (b := 256) (iblk0 V c 0 t) = fun p k => m2 (a := 50000) (b := 256) (V c main_arg0) (rowOf0 t p) k := by
  funext p k
  obtain ⟨h0, h1⟩ := idxIn0_0 t
  show iblk0 V c 0 t (ix2 p k) = V c main_arg0 (ix2 (rowOf0 t p) k)
  unfold iblk0
  rw [View.read_apply]
  show V c main_arg0 (((cfg0.win 0).blk t).view.emb (ix2 p k)) = V c main_arg0 (ix2 (rowOf0 t p) k)
  refine congrArg (V c main_arg0) (funext fun a => Fin.ext ?_)
  match a with
  | ⟨0, _⟩ => show win0_0.index t (0 : Fin 2) * 1000 + 1 * p.val = t.val * 1000 + p.val; rw [h0]; omega
  | ⟨1, _⟩ => show win0_0.index t (1 : Fin 2) * 256 + 1 * k.val = k.val; rw [h1]; omega

theorem blk0_1 (t : Fin cfg0.N) : m2 (a := 1000) (b := 128) (iblk0 V c 1 t) = fun p k => m2 (a := 50000) (b := 128) (V c main_v2) (rowOf0 t p) k := by
  funext p k
  obtain ⟨h0, h1⟩ := idxIn0_1 t
  show iblk0 V c 1 t (ix2 p k) = V c main_v2 (ix2 (rowOf0 t p) k)
  unfold iblk0
  rw [View.read_apply]
  show V c main_v2 (((cfg0.win 1).blk t).view.emb (ix2 p k)) = V c main_v2 (ix2 (rowOf0 t p) k)
  refine congrArg (V c main_v2) (funext fun a => Fin.ext ?_)
  match a with
  | ⟨0, _⟩ => show win0_1.index t (0 : Fin 2) * 1000 + 1 * p.val = t.val * 1000 + p.val; rw [h0]; omega
  | ⟨1, _⟩ => show win0_1.index t (1 : Fin 2) * 128 + 1 * k.val = k.val; rw [h1]; omega

theorem blk0_2 (t : Fin cfg0.N) : col (a := 1000) (iblk0 V c 2 t) = fun p => col (a := 50000) (V c main_v7) (rowOf0 t p) := by
  funext p
  obtain ⟨h0, h1⟩ := idxIn0_2 t
  show iblk0 V c 2 t (ix2 p (0 : Fin 1)) = V c main_v7 (ix2 (rowOf0 t p) (0 : Fin 1))
  unfold iblk0
  rw [View.read_apply]
  show V c main_v7 (((cfg0.win 2).blk t).view.emb (ix2 p (0 : Fin 1))) = V c main_v7 (ix2 (rowOf0 t p) (0 : Fin 1))
  refine congrArg (V c main_v7) (funext fun a => Fin.ext ?_)
  match a with
  | ⟨0, _⟩ => show win0_2.index t (0 : Fin 2) * 1000 + 1 * p.val = t.val * 1000 + p.val; rw [h0]; omega
  | ⟨1, _⟩ => show win0_2.index t (1 : Fin 2) * 1 + 1 * 0 = 0; rw [h1]

theorem blk0_3 (t : Fin cfg0.N) : m2 (a := 256) (b := 256) (iblk0 V c 3 t) = m2 (a := 256) (b := 256) (V c main_arg3) := by
  funext p k
  obtain ⟨h0, h1⟩ := idxIn0_3 t
  show iblk0 V c 3 t (ix2 p k) = V c main_arg3 (ix2 p k)
  unfold iblk0
  rw [View.read_apply]
  show V c main_arg3 (((cfg0.win 3).blk t).view.emb (ix2 p k)) = V c main_arg3 (ix2 p k)
  refine congrArg (V c main_arg3) (funext fun a => Fin.ext ?_)
  match a with
  | ⟨0, _⟩ => show win0_3.index t (0 : Fin 2) * 256 + 1 * p.val = p.val; rw [h0]; omega
  | ⟨1, _⟩ => show win0_3.index t (1 : Fin 2) * 256 + 1 * k.val = k.val; rw [h1]; omega

theorem blk0_4 (t : Fin cfg0.N) : m2 (a := 256) (b := 128) (iblk0 V c 4 t) = m2 (a := 256) (b := 128) (V c main_arg5) := by
  funext p k
  obtain ⟨h0, h1⟩ := idxIn0_4 t
  show iblk0 V c 4 t (ix2 p k) = V c main_arg5 (ix2 p k)
  unfold iblk0
  rw [View.read_apply]
  show V c main_arg5 (((cfg0.win 4).blk t).view.emb (ix2 p k)) = V c main_arg5 (ix2 p k)
  refine congrArg (V c main_arg5) (funext fun a => Fin.ext ?_)
  match a with
  | ⟨0, _⟩ => show win0_4.index t (0 : Fin 2) * 256 + 1 * p.val = p.val; rw [h0]; omega
  | ⟨1, _⟩ => show win0_4.index t (1 : Fin 2) * 128 + 1 * k.val = k.val; rw [h1]; omega

theorem blk0_5 (t : Fin cfg0.N) : row (b := 256) (iblk0 V c 5 t) = row (b := 256) (V c main_v8) := by
  funext k
  obtain ⟨h0, h1⟩ := idxIn0_5 t
  show iblk0 V c 5 t (ix2 (0 : Fin 1) k) = V c main_v8 (ix2 (0 : Fin 1) k)
  unfold iblk0
  rw [View.read_apply]
  show V c main_v8 (((cfg0.win 5).blk t).view.emb (ix2 (0 : Fin 1) k)) = V c main_v8 (ix2 (0 : Fin 1) k)
  refine congrArg (V c main_v8) (funext fun a => Fin.ext ?_)
  match a with
  | ⟨0, _⟩ => show win0_5.index t (0 : Fin 2) * 1 + 1 * 0 = 0; rw [h0]
  | ⟨1, _⟩ => show win0_5.index t (1 : Fin 2) * 256 + 1 * k.val = k.val; rw [h1]; omega

theorem blk0_6 (t : Fin cfg0.N) : row (b := 256) (iblk0 V c 6 t) = row (b := 256) (V c main_v9) := by
  funext k
  obtain ⟨h0, h1⟩ := idxIn0_6 t
  show iblk0 V c 6 t (ix2 (0 : Fin 1) k) = V c main_v9 (ix2 (0 : Fin 1) k)
  unfold iblk0
  rw [View.read_apply]
  show V c main_v9 (((cfg0.win 6).blk t).view.emb (ix2 (0 : Fin 1) k)) = V c main_v9 (ix2 (0 : Fin 1) k)
  refine congrArg (V c main_v9) (funext fun a => Fin.ext ?_)
  match a with
  | ⟨0, _⟩ => show win0_6.index t (0 : Fin 2) * 1 + 1 * 0 = 0; rw [h0]
  | ⟨1, _⟩ => show win0_6.index t (1 : Fin 2) * 256 + 1 * k.val = k.val; rw [h1]; omega

/-- The rectified hidden matrix of all 50000 nodes, from the arrays the region finds. -/
def Hk : Fin 50000 → Fin 256 → EReal :=
  hrelu (m2 (a := 50000) (b := 256) (V c main_arg0)) (m2 (a := 50000) (b := 128) (V c main_v2)) (col (a := 50000) (V c main_v7))
    (m2 (a := 256) (b := 256) (V c main_arg3)) (m2 (a := 256) (b := 128) (V c main_arg5)) (row (b := 256) (V c main_v8)) (row (b := 256) (V c main_v9))

/-- Point `s`'s addend of a column quantity `f`: its sum over the point's 1000 rows. -/
def addend (f : Fin 50000 → Fin 256 → EReal) (s : ℕ) (q : Fin 256) : EReal :=
  ∑ r : Fin 1000, Cert.Math.ext0 (fun n => f n q) (s * 1000 + r.val)

/-- The hidden block of point `t` is rows `1000 t …` of the hidden matrix. -/
theorem hidden_blk (t : Fin cfg0.N) (p : Fin 1000) (q : Fin 256) :
    hrelu (m2 (a := 1000) (b := 256) (iblk0 V c 0 t)) (m2 (a := 1000) (b := 128) (iblk0 V c 1 t)) (col (a := 1000) (iblk0 V c 2 t))
      (m2 (a := 256) (b := 256) (iblk0 V c 3 t)) (m2 (a := 256) (b := 128) (iblk0 V c 4 t)) (row (b := 256) (iblk0 V c 5 t)) (row (b := 256) (iblk0 V c 6 t)) p q
      = Hk V c (rowOf0 t p) q := by
  rw [blk0_0 V c t, blk0_1 V c t, blk0_2 V c t, blk0_3 V c t, blk0_4 V c t, blk0_5 V c t, blk0_6 V c t]
  rfl

theorem addend7 (t : Fin cfg0.N) (q : Fin 256) :
    k0_pay6 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = addend (Hk V c) t.val q := by
  refine (Cert.Payload.pay6_apply (iblk0 V c 0 t) (iblk0 V c 3 t) (iblk0 V c 1 t) (iblk0 V c 4 t) (iblk0 V c 2 t) (iblk0 V c 6 t) (iblk0 V c 5 t) q).trans ?_
  unfold addend
  refine Finset.sum_congr rfl fun p _ => ?_
  rw [Cert.Math.ext0_of_lt _ _ (show t.val * 1000 + p.val < 50000 from (rowOf0 t p).isLt)]
  exact hidden_blk V c t p q

theorem addend8 (t : Fin cfg0.N) (q : Fin 256) :
    k0_pay7 (F := Ideal) (iblk0 V c 0 t) (iblk0 V c 3 t) (iblk0 V c 1 t) (iblk0 V c 4 t) (iblk0 V c 2 t) (iblk0 V c 6 t) (iblk0 V c 5 t) (ix3 (0 : Fin 1) (0 : Fin 1) q) = addend (fun n q => Hk V c n q * Hk V c n q) t.val q := by
  refine (Cert.Payload.pay7_apply (iblk0 V c 0 t) (iblk0 V c 3 t) (iblk0 V c 1 t) (iblk0 V c 4 t) (iblk0 V c 2 t) (iblk0 V c 6 t) (iblk0 V c 5 t) q).trans ?_
  unfold addend
  refine Finset.sum_congr rfl fun p _ => ?_
  rw [Cert.Math.ext0_of_lt _ _ (show t.val * 1000 + p.val < 50000 from (rowOf0 t p).isLt), hidden_blk V c t p q]
  rfl

/-- The first written-back array: every run's total of the hidden matrix's column sums. -/
theorem totals7 : (dat0 V c).arrAt 7 cfg0.N = tot (addend (Hk V c)) := final7 V c _ (addend7 V c)
/-- The second: every run's total of the column sums of squares. -/
theorem totals8 : (dat0 V c).arrAt 8 cfg0.N = tot (addend (fun n q => Hk V c n q * Hk V c n q)) := final8 V c _ (addend8 V c)

end Blocks

end Cert.Stats

end
-- ==== Proof.Finalize.lean ====
/-
  The finishing region: each of its 25 points recomputes the rectified hidden block of its 2000 rows and writes
  the normalised block back, so the result array is, entry by entry, the normalisation of the hidden matrix by the
  mean, variance, gain and offset rows the region finds.
-/
import proofs.«118495_j41162966565588_2_alg».proof.Proof.Gen.KernelIdeal.Frame
import proofs.«118495_j41162966565588_2_alg».proof.Proof.Payload
import proofs.«118495_j41162966565588_2_alg».proof.Proof.Stats
import Idealize.ShloMosaic.Lib.Pipeline.Value
import Idealize.ShloMosaic.Lib.Tactic

set_option maxRecDepth 16384

noncomputable section

namespace Cert.Finalize

open Cert.KernelIdeal Cert.KernelIdeal.Gen Cert.Spec Cert.Stats
open Idealize.ShloMosaic Idealize.ShloMosaic.TcCoe Idealize.SL.Sem Idealize.ShloMosaic.Tactic Idealize.ShloMosaic.ValueIdx
open Idealize.ShloMosaic.Pipeline (Dat)

/-- The stored block at `(p, q)`: the hidden entry normalised by the four rows. -/
theorem out1_apply (x0 : Vec Ideal S2000x256 .f32) (x1 : Vec Ideal S2000x128 .f32) (x2 : Vec Ideal S2000x1 .f32) (x3 : Vec Ideal S256x256 .f32) (x4 : Vec Ideal S256x128 .f32) (x5 x6 x7 x8 x9 x10 : Vec Ideal S1x256 .f32) (p : Fin 2000) (q : Fin 256) :
    out1_11 (F := Ideal) x0 x1 x2 x3 x4 x5 x6 x7 x8 x9 x10 (ix2 p q)
      = fin (hrelu (m2 x0) (m2 x1) (col x2) (m2 x3) (m2 x4) (row x5) (row x6) p q) (row x7 q) (row x8 q) (row x9 q) (row x10 q) := by
  unfold out1_11
  rw [View.canon_unit_zero hz2]
  simp only [View.ld_unit_zero (S := S2000x256) hz2, View.ld_unit_zero (S := S256x256) hz2, View.ld_unit_zero (S := S2000x128) hz2,
    View.ld_unit_zero (S := S256x128) hz2, View.ld_unit_zero (S := S2000x1) hz2, View.ld_unit_zero (S := S1x256) hz2]
  exact Cert.Payload.k1_out_apply x0 x3 x1 x4 x2 x6 x5 x8 x7 x9 x10 p q

variable (V : (c : Dev nD) → (b : Ref sig .tc) → Buf (Elt Ideal) ((c : Thread nD τ).loc b)) (c : Dev nD)

/-- Row `p` of point `t`'s block is row `2000 t + p` of the array. -/
def rowOf1 (t : Fin cfg1.N) (p : Fin 2000) : Fin 50000 :=
  ⟨t.val * 2000 + p.val, by have h : t.val < 25 := lt_of_lt_of_eq t.isLt (show cfg1.N = 25 from N_1); have := p.isLt; omega⟩

theorem idxIn1_0 : ∀ t : Fin cfg1.N, win1_0.index t (0 : Fin 2) = t.val ∧ win1_0.index t (1 : Fin 2) = 0 :=
  (by decide +kernel : ∀ t : Fin grid1.N, _)

theorem idxIn1_1 : ∀ t : Fin cfg1.N, win1_1.index t (0 : Fin 2) = t.val ∧ win1_1.index t (1 : Fin 2) = 0 :=
  (by decide +kernel : ∀ t : Fin grid1.N, _)

theorem idxIn1_2 : ∀ t : Fin cfg1.N, win1_2.index t (0 : Fin 2) = t.val ∧ win1_2.index t (1 : Fin 2) = 0 :=
  (by decide +kernel : ∀ t : Fin grid1.N, _)

theorem idxIn1_3 : ∀ t : Fin cfg1.N, win1_3.index t (0 : Fin 2) = 0 ∧ win1_3.index t (1 : Fin 2) = 0 :=
  (by decide +kernel : ∀ t : Fin grid1.N, _)

theorem idxIn1_4 : ∀ t : Fin cfg1.N, win1_4.index t (0 : Fin 2) = 0 ∧ win1_4.index t (1 : Fin 2) = 0 :=
  (by decide +kernel : ∀ t : Fin grid1.N, _)

theorem idxIn1_5 : ∀ t : Fin cfg1.N, win1_5.index t (0 : Fin 2) = 0 ∧ win1_5.index t (1 : Fin 2) = 0 :=
  (by decide +kernel : ∀ t : Fin grid1.N, _)

theorem idxIn1_6 : ∀ t : Fin cfg1.N, win1_6.index t (0 : Fin 2) = 0 ∧ win1_6.index t (1 : Fin 2) = 0 :=
  (by decide +kernel : ∀ t : Fin grid1.N, _)

theorem idxIn1_7 : ∀ t : Fin cfg1.N, win1_7.index t (0 : Fin 2) = 0 ∧ win1_7.index t (1 : Fin 2) = 0 :=
  (by decide +kernel : ∀ t : Fin grid1.N, _)

theorem idxIn1_8 : ∀ t : Fin cfg1.N, win1_8.index t (0 : Fin 2) = 0 ∧ win1_8.index t (1 : Fin 2) = 0 :=
  (by decide +kernel : ∀ t : Fin grid1.N, _)

theorem idxIn1_9 : ∀ t : Fin cfg1.N, win1_9.index t (0 : Fin 2) = 0 ∧ win1_9.index t (1 : Fin 2) = 0 :=
  (by decide +kernel : ∀ t : Fin grid1.N, _)

theorem idxIn1_10 : ∀ t : Fin cfg1.N, win1_10.index t (0 : Fin 2) = 0 ∧ win1_10.index t (1 : Fin 2) = 0 :=
  (by decide +kernel : ∀ t : Fin grid1.N, _)
theorem idxOut : ∀ t : Fin cfg1.N, win1_11.index t (0 : Fin 2) = t.val ∧ win1_11.index t (1 : Fin 2) = 0 :=
  (by decide +kernel : ∀ t : Fin grid1.N, _)

theorem blk1_0 (t : Fin cfg1.N) : m2 (a := 2000) (b := 256) (iblk1 V c 0 t) = fun p k => m2 (a := 50000) (b := 256) (V c main_arg0) (rowOf1 t p) k := by
  funext p k
  obtain ⟨h0, h1⟩ := idxIn1_0 t
  show iblk1 V c 0 t (ix2 p k) = V c main_arg0 (ix2 (rowOf1 t p) k)
  unfold iblk1
  rw [View.read_apply]
  show V c main_arg0 (((cfg1.win 0).blk t).view.emb (ix2 p k)) = V c main_arg0 (ix2 (rowOf1 t p) k)
  refine congrArg (V c main_arg0) (funext fun a => Fin.ext ?_)
  match a with
  | ⟨0, _⟩ => show win1_0.index t (0 : Fin 2) * 2000 + 1 * p.val = t.val * 2000 + p.val; rw [h0]; omega
  | ⟨1, _⟩ => show win1_0.index t (1 : Fin 2) * 256 + 1 * k.val = k.val; rw [h1]; omega

theorem blk1_1 (t : Fin cfg1.N) : m2 (a := 2000) (b := 128) (iblk1 V c 1 t) = fun p k => m2 (a := 50000) (b := 128) (V c main_v2) (rowOf1 t p) k := by
  funext p k
  obtain ⟨h0, h1⟩ := idxIn1_1 t
  show iblk1 V c 1 t (ix2 p k) = V c main_v2 (ix2 (rowOf1 t p) k)
  unfold iblk1
  rw [View.read_apply]
  show V c main_v2 (((cfg1.win 1).blk t).view.emb (ix2 p k)) = V c main_v2 (ix2 (rowOf1 t p) k)
  refine congrArg (V c main_v2) (funext fun a => Fin.ext ?_)
  match a with
  | ⟨0, _⟩ => show win1_1.index t (0 : Fin 2) * 2000 + 1 * p.val = t.val * 2000 + p.val; rw [h0]; omega
  | ⟨1, _⟩ => show win1_1.index t (1 : Fin 2) * 128 + 1 * k.val = k.val; rw [h1]; omega

theorem blk1_2 (t : Fin cfg1.N) : col (a := 2000) (iblk1 V c 2 t) = fun p => col (a := 50000) (V c main_v7) (rowOf1 t p) := by
  funext p
  obtain ⟨h0, h1⟩ := idxIn1_2 t
  show iblk1 V c 2 t (ix2 p (0 : Fin 1)) = V c main_v7 (ix2 (rowOf1 t p) (0 : Fin 1))
  unfold iblk1
  rw [View.read_apply]
  show V c main_v7 (((cfg1.win 2).blk t).view.emb (ix2 p (0 : Fin 1))) = V c main_v7 (ix2 (rowOf1 t p) (0 : Fin 1))
  refine congrArg (V c main_v7) (funext fun a => Fin.ext ?_)
  match a with
  | ⟨0, _⟩ => show win1_2.index t (0 : Fin 2) * 2000 + 1 * p.val = t.val * 2000 + p.val; rw [h0]; omega
  | ⟨1, _⟩ => show win1_2.index t (1 : Fin 2) * 1 + 1 * 0 = 0; rw [h1]

theorem blk1_3 (t : Fin cfg1.N) : m2 (a := 256) (b := 256) (iblk1 V c 3 t) = m2 (a := 256) (b := 256) (V c main_arg3) := by
  funext p k
  obtain ⟨h0, h1⟩ := idxIn1_3 t
  show iblk1 V c 3 t (ix2 p k) = V c main_arg3 (ix2 p k)
  unfold iblk1
  rw [View.read_apply]
  show V c main_arg3 (((cfg1.win 3).blk t).view.emb (ix2 p k)) = V c main_arg3 (ix2 p k)
  refine congrArg (V c main_arg3) (funext fun a => Fin.ext ?_)
  match a with
  | ⟨0, _⟩ => show win1_3.index t (0 : Fin 2) * 256 + 1 * p.val = p.val; rw [h0]; omega
  | ⟨1, _⟩ => show win1_3.index t (1 : Fin 2) * 256 + 1 * k.val = k.val; rw [h1]; omega

theorem blk1_4 (t : Fin cfg1.N) : m2 (a := 256) (b := 128) (iblk1 V c 4 t) = m2 (a := 256) (b := 128) (V c main_arg5) := by
  funext p k
  obtain ⟨h0, h1⟩ := idxIn1_4 t
  show iblk1 V c 4 t (ix2 p k) = V c main_arg5 (ix2 p k)
  unfold iblk1
  rw [View.read_apply]
  show V c main_arg5 (((cfg1.win 4).blk t).view.emb (ix2 p k)) = V c main_arg5 (ix2 p k)
  refine congrArg (V c main_arg5) (funext fun a => Fin.ext ?_)
  match a with
  | ⟨0, _⟩ => show win1_4.index t (0 : Fin 2) * 256 + 1 * p.val = p.val; rw [h0]; omega
  | ⟨1, _⟩ => show win1_4.index t (1 : Fin 2) * 128 + 1 * k.val = k.val; rw [h1]; omega

theorem blk1_5 (t : Fin cfg1.N) : row (b := 256) (iblk1 V c 5 t) = row (b := 256) (V c main_v8) := by
  funext k
  obtain ⟨h0, h1⟩ := idxIn1_5 t
  show iblk1 V c 5 t (ix2 (0 : Fin 1) k) = V c main_v8 (ix2 (0 : Fin 1) k)
  unfold iblk1
  rw [View.read_apply]
  show V c main_v8 (((cfg1.win 5).blk t).view.emb (ix2 (0 : Fin 1) k)) = V c main_v8 (ix2 (0 : Fin 1) k)
  refine congrArg (V c main_v8) (funext fun a => Fin.ext ?_)
  match a with
  | ⟨0, _⟩ => show win1_5.index t (0 : Fin 2) * 1 + 1 * 0 = 0; rw [h0]
  | ⟨1, _⟩ => show win1_5.index t (1 : Fin 2) * 256 + 1 * k.val = k.val; rw [h1]; omega

theorem blk1_6 (t : Fin cfg1.N) : row (b := 256) (iblk1 V c 6 t) = row (b := 256) (V c main_v9) := by
  funext k
  obtain ⟨h0, h1⟩ := idxIn1_6 t
  show iblk1 V c 6 t (ix2 (0 : Fin 1) k) = V c main_v9 (ix2 (0 : Fin 1) k)
  unfold iblk1
  rw [View.read_apply]
  show V c main_v9 (((cfg1.win 6).blk t).view.emb (ix2 (0 : Fin 1) k)) = V c main_v9 (ix2 (0 : Fin 1) k)
  refine congrArg (V c main_v9) (funext fun a => Fin.ext ?_)
  match a with
  | ⟨0, _⟩ => show win1_6.index t (0 : Fin 2) * 1 + 1 * 0 = 0; rw [h0]
  | ⟨1, _⟩ => show win1_6.index t (1 : Fin 2) * 256 + 1 * k.val = k.val; rw [h1]; omega

theorem blk1_7 (t : Fin cfg1.N) : row (b := 256) (iblk1 V c 7 t) = row (b := 256) (V c main_v14) := by
  funext k
  obtain ⟨h0, h1⟩ := idxIn1_7 t
  show iblk1 V c 7 t (ix2 (0 : Fin 1) k) = V c main_v14 (ix2 (0 : Fin 1) k)
  unfold iblk1
  rw [View.read_apply]
  show V c main_v14 (((cfg1.win 7).blk t).view.emb (ix2 (0 : Fin 1) k)) = V c main_v14 (ix2 (0 : Fin 1) k)
  refine congrArg (V c main_v14) (funext fun a => Fin.ext ?_)
  match a with
  | ⟨0, _⟩ => show win1_7.index t (0 : Fin 2) * 1 + 1 * 0 = 0; rw [h0]
  | ⟨1, _⟩ => show win1_7.index t (1 : Fin 2) * 256 + 1 * k.val = k.val; rw [h1]; omega

theorem blk1_8 (t : Fin cfg1.N) : row (b := 256) (iblk1 V c 8 t) = row (b := 256) (V c main_v20) := by
  funext k
  obtain ⟨h0, h1⟩ := idxIn1_8 t
  show iblk1 V c 8 t (ix2 (0 : Fin 1) k) = V c main_v20 (ix2 (0 : Fin 1) k)
  unfold iblk1
  rw [View.read_apply]
  show V c main_v20 (((cfg1.win 8).blk t).view.emb (ix2 (0 : Fin 1) k)) = V c main_v20 (ix2 (0 : Fin 1) k)
  refine congrArg (V c main_v20) (funext fun a => Fin.ext ?_)
  match a with
  | ⟨0, _⟩ => show win1_8.index t (0 : Fin 2) * 1 + 1 * 0 = 0; rw [h0]
  | ⟨1, _⟩ => show win1_8.index t (1 : Fin 2) * 256 + 1 * k.val = k.val; rw [h1]; omega

theorem blk1_9 (t : Fin cfg1.N) : row (b := 256) (iblk1 V c 9 t) = row (b := 256) (V c main_v21) := by
  funext k
  obtain ⟨h0, h1⟩ := idxIn1_9 t
  show iblk1 V c 9 t (ix2 (0 : Fin 1) k) = V c main_v21 (ix2 (0 : Fin 1) k)
  unfold iblk1
  rw [View.read_apply]
  show V c main_v21 (((cfg1.win 9).blk t).view.emb (ix2 (0 : Fin 1) k)) = V c main_v21 (ix2 (0 : Fin 1) k)
  refine congrArg (V c main_v21) (funext fun a => Fin.ext ?_)
  match a with
  | ⟨0, _⟩ => show win1_9.index t (0 : Fin 2) * 1 + 1 * 0 = 0; rw [h0]
  | ⟨1, _⟩ => show win1_9.index t (1 : Fin 2) * 256 + 1 * k.val = k.val; rw [h1]; omega

theorem blk1_10 (t : Fin cfg1.N) : row (b := 256) (iblk1 V c 10 t) = row (b := 256) (V c main_v22) := by
  funext k
  obtain ⟨h0, h1⟩ := idxIn1_10 t
  show iblk1 V c 10 t (ix2 (0 : Fin 1) k) = V c main_v22 (ix2 (0 : Fin 1) k)
  unfold iblk1
  rw [View.read_apply]
  show V c main_v22 (((cfg1.win 10).blk t).view.emb (ix2 (0 : Fin 1) k)) = V c main_v22 (ix2 (0 : Fin 1) k)
  refine congrArg (V c main_v22) (funext fun a => Fin.ext ?_)
  match a with
  | ⟨0, _⟩ => show win1_10.index t (0 : Fin 2) * 1 + 1 * 0 = 0; rw [h0]
  | ⟨1, _⟩ => show win1_10.index t (1 : Fin 2) * 256 + 1 * k.val = k.val; rw [h1]; omega

/-- The result array as one function of the arrays the region finds. -/
def G : S50000x256.Idx → EReal := fun i =>
  fin (Hk V c (i 0) (i 1)) (row (b := 256) (V c main_v14) (i 1)) (row (b := 256) (V c main_v20) (i 1))
    (row (b := 256) (V c main_v21) (i 1)) (row (b := 256) (V c main_v22) (i 1))

/-- What point `t` writes back is block `t` of `G`. -/
theorem flushed11_eq (t : Fin cfg1.N) :
    (dat1 V c).flushed 11 t = ((cfg1.win 11).blk t).view.read (Elt Ideal) (G V c) := by
  obtain ⟨o0, o1⟩ := idxOut t
  show (cfg1.win 11).cut (grid1.coords t) ((dat1 V c).after 11 t) = _
  rw [after1_11]
  funext j
  obtain ⟨p, q, rfl⟩ : ∃ (p : Fin 2000) (q : Fin 256), j = ix2 p q := ⟨j 0, j 1, eq_ix2 (n0 := 2000) (n1 := 256) j⟩
  show out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q) = G V c (((cfg1.win 11).blk t).view.emb (ix2 p q))
  refine (out1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p q).trans ?_
  rw [blk1_0 V c t, blk1_1 V c t, blk1_2 V c t, blk1_3 V c t, blk1_4 V c t, blk1_5 V c t, blk1_6 V c t, blk1_7 V c t,
    blk1_8 V c t, blk1_9 V c t, blk1_10 V c t]
  have e0 : (((cfg1.win 11).blk t).view.emb (ix2 p q)) 0 = rowOf1 t p := Fin.ext (by
    show win1_11.index t (0 : Fin 2) * 2000 + 1 * p.val = t.val * 2000 + p.val
    rw [o0]; omega)
  have e1 : (((cfg1.win 11).blk t).view.emb (ix2 p q)) 1 = q := Fin.ext (by
    show win1_11.index t (1 : Fin 2) * 256 + 1 * q.val = q.val
    rw [o1]; omega)
  unfold G
  rw [e0, e1]
  rfl

/-- The blocks tile the array, so it ends holding `G`. -/
theorem final11 : (dat1 V c).arrAt 11 cfg1.N = G V c :=
  (dat1 V c).arrAt_eq_of_cover 11 (G V c) (fun t _ => flushed11_eq V c t) fun i => by
    have hi0 : (i 0).val < 50000 := (i 0).isLt
    have hi1 : (i 1).val < 256 := (i 1).isLt
    have hN : cfg1.N = 25 := N_1
    have hlt : (i 0).val / 2000 < cfg1.N := by rw [hN]; omega
    obtain ⟨o0, o1⟩ := idxOut ⟨(i 0).val / 2000, hlt⟩
    refine ⟨⟨(i 0).val / 2000, hlt⟩, flush1_11 _, ?_⟩
    show i ∈ ((View.whole main_v23).slice (win1_11.rect ⟨(i 0).val / 2000, hlt⟩)).set
    rw [View.set_slice_whole, Rect.mem_set_unit]
    intro a
    match a with
    | ⟨0, _⟩ =>
      show win1_11.index ⟨(i 0).val / 2000, hlt⟩ (0 : Fin 2) * 2000 ≤ (i 0).val ∧ (i 0).val < win1_11.index ⟨(i 0).val / 2000, hlt⟩ (0 : Fin 2) * 2000 + 2000
      rw [o0]; dsimp only; omega
    | ⟨1, _⟩ =>
      show win1_11.index ⟨(i 0).val / 2000, hlt⟩ (1 : Fin 2) * 256 ≤ (i 1).val ∧ (i 1).val < win1_11.index ⟨(i 0).val / 2000, hlt⟩ (1 : Fin 2) * 256 + 256
      rw [o1]; omega

end Cert.Finalize

end
-- ==== Proof.KernelSide.lean ====
/-
  The idealized kernel's result at an entry, in the specification's terms.

  The result entry `(n, q)` is the hidden entry normalised by the mean and variance rows the host forms between the
  two calls from the written-back run totals: the two cores' totals added from zero and divided by 50000; the
  hidden matrix is the same in both calls because the second call finds the first call's operands unchanged.
-/
import proofs.«118495_j41162966565588_2_alg».proof.Proof.Boundary
import proofs.«118495_j41162966565588_2_alg».proof.Proof.Stats
import proofs.«118495_j41162966565588_2_alg».proof.Proof.Finalize
import proofs.«118495_j41162966565588_2_alg».proof.Proof.RunValue
import proofs.«118495_j41162966565588_2_alg».proof.Proof.LibLayout
import Idealize.ShloMosaic.Lib.ValueLayout
import Idealize.ShloMosaic.PureOps.Ideal.Laws

set_option maxRecDepth 16384

noncomputable section

namespace Cert.KernelSide

open Cert.KernelIdeal Cert.KernelIdeal.Gen Cert.Spec Cert.Stats Cert.Finalize Cert.Boundary
open Idealize.ShloMosaic Idealize.ShloMosaic.TcCoe Idealize.SL.Sem Idealize.ShloMosaic.ValueIdx

/-- The divisor both programs spell: the word of 50000.0. -/
abbrev c5e4 : EReal := Ideal.ofBits .f32 0x47435000#32

/-- A scalar constant broadcast to any shape reads its word everywhere. -/
theorem bcast_const {t : Shape} (h : S_.BroadcastsInDim t ![]) (w : BitVec 32) (j : t.Idx) :
    broadcastInDim t ![] h (constant (F := Ideal) S_ .f32 w) j = Ideal.ofBits .f32 w :=
  broadcastInDim_apply _ h _ j (fun a => a.elim0) (fun a => a.elim0)

/-- The host's sum of a `[2, 1, 256]` array over its first axis from zero, at column `q`. -/
theorem reduce2 (T : FVec Ideal S2x1x256 .f32) (q : Fin 256) :
    Host.reduceAdd (F := Ideal) T (constant S_ .f32 0x00000000#32) reducesTo_S2x1x256_S1x256_d0 h_S_ (ix2 (0 : Fin 1) q)
      = z32 + (T (ix3 (0 : Fin 2) (0 : Fin 1) q) + T (ix3 (1 : Fin 2) (0 : Fin 1) q)) := by
  simp only [Host.reduceAdd, Ideal.hostReduceAdd_def]
  rw [Ideal.hostReduceAdd_single reducesTo_S2x1x256_S1x256_d0 (by decide)]
  refine congrArg (_ + ·) ?_
  show ∑ k : Fin 2, T _ = _
  rw [Fin.sum_univ_two]
  congr 1 <;> exact congrArg T (funext fun a => Fin.ext (by match a with | ⟨0, _⟩ => rfl | ⟨1, _⟩ => rfl | ⟨2, _⟩ => rfl))

variable (m : (ℓ : Loc nD τ sig) → Buf (Elt Ideal) ℓ) (ρ : Dev nD → PrngReg) (c : Dev nD)

/-- The hidden matrix, from the first call's operands. -/
abbrev HK : Fin 50000 → Fin 256 → EReal := Hk (V1 m ρ) c

/-- The second call finds the same hidden matrix. -/
theorem Hk_V3 : Hk (V3 m ρ) c = HK m ρ c := by
  unfold HK Hk
  rw [V3_main_arg0, V3_main_v2, V3_main_v7, V3_main_arg3, V3_main_arg5, V3_main_v8, V3_main_v9]

/-- The mean row at column `q`. -/
def meanK (q : Fin 256) : EReal :=
  Ideal.div (z32 + (tot (addend (HK m ρ c)) (ix3 (0 : Fin 2) (0 : Fin 1) q) + tot (addend (HK m ρ c)) (ix3 (1 : Fin 2) (0 : Fin 1) q))) c5e4

/-- The variance row at column `q`. -/
def varK (q : Fin 256) : EReal :=
  max (Ideal.div (z32 + (tot (addend (fun n q => HK m ρ c n q * HK m ρ c n q)) (ix3 (0 : Fin 2) (0 : Fin 1) q)
      + tot (addend (fun n q => HK m ρ c n q * HK m ρ c n q)) (ix3 (1 : Fin 2) (0 : Fin 1) q))) c5e4
    - meanK m ρ c q * meanK m ρ c q) z32

theorem mean_row (q : Fin 256) : row (b := 256) (V3 m ρ c main_v14) q = meanK m ρ c q := by
  show V3 m ρ c main_v14 (ix2 (0 : Fin 1) q) = _
  rw [V3_main_v14, W2_totals, totals7]
  show FloatOps.hostDivf (Host.reduceAdd (F := Ideal) _ _ _ _ (ix2 (0 : Fin 1) q)) (broadcastInDim S1x256 ![] bcast_S_S1x256 (constant (F := Ideal) S_ .f32 0x47435000#32) (ix2 (0 : Fin 1) q)) = _
  rw [reduce2, bcast_const]
  rfl

theorem var_row (q : Fin 256) : row (b := 256) (V3 m ρ c main_v20) q = varK m ρ c q := by
  show V3 m ρ c main_v20 (ix2 (0 : Fin 1) q) = _
  rw [V3_main_v20, W2_totals, W2_totals', totals7, totals8]
  show max (FloatOps.hostDivf (Host.reduceAdd (F := Ideal) _ _ _ _ (ix2 (0 : Fin 1) q)) (broadcastInDim S1x256 ![] bcast_S_S1x256 (constant (F := Ideal) S_ .f32 0x47435000#32) (ix2 (0 : Fin 1) q))
      - FloatOps.hostDivf (Host.reduceAdd (F := Ideal) _ _ _ _ (ix2 (0 : Fin 1) q)) (broadcastInDim S1x256 ![] bcast_S_S1x256 (constant (F := Ideal) S_ .f32 0x47435000#32) (ix2 (0 : Fin 1) q))
        * FloatOps.hostDivf (Host.reduceAdd (F := Ideal) _ _ _ _ (ix2 (0 : Fin 1) q)) (broadcastInDim S1x256 ![] bcast_S_S1x256 (constant (F := Ideal) S_ .f32 0x47435000#32) (ix2 (0 : Fin 1) q)))
      (broadcastInDim S1x256 ![] bcast_S_S1x256 (constant (F := Ideal) S_ .f32 0x00000000#32) (ix2 (0 : Fin 1) q)) = _
  rw [reduce2, reduce2, bcast_const, bcast_const]
  rfl

theorem gain_row (q : Fin 256) : row (b := 256) (V3 m ρ c main_v21) q = m ((c : Thread nD τ).loc main_arg7) (ix1 q) := by
  show V3 m ρ c main_v21 (ix2 (0 : Fin 1) q) = _
  rw [V3_main_v21]
  exact shapeCast_a_1a_apply _ _ 0 q

theorem offset_row (q : Fin 256) : row (b := 256) (V3 m ρ c main_v22) q = m ((c : Thread nD τ).loc main_arg8) (ix1 q) := by
  show V3 m ρ c main_v22 (ix2 (0 : Fin 1) q) = _
  rw [V3_main_v22]
  exact shapeCast_a_1a_apply _ _ 0 q

/-- The result array after the run, entry by entry. -/
theorem result_entry (n : Fin 50000) (q : Fin 256) :
    W4 m ρ c (Proc.devRef .tc main_v23) (ix2 n q)
      = fin (HK m ρ c n q) (meanK m ρ c q) (varK m ρ c q) (m ((c : Thread nD τ).loc main_arg7) (ix1 q))
          (m ((c : Thread nD τ).loc main_arg8) (ix1 q)) := by
  rw [show W4 m ρ c (Proc.devRef .tc main_v23) = G (V3 m ρ) c from (W4_arr m ρ c 11).trans (final11 (V3 m ρ) c)]
  unfold G
  rw [Hk_V3, mean_row, var_row, gain_row, offset_row]

end Cert.KernelSide

end
-- ==== Proof.LibScatterRows.lean ====
/-
  THE ACCUMULATING SCATTER OF ROWS, READ AT AN ENTRY.

  For an operand `x : [N, C]`, scatter indices `idx : [M, 1]` (one scalar row index per update row) and updates
  `upd : [M, C]`, the accumulating scatter (`x.at[idx].add(upd)`, whole rows added at the indexed rows) at the ideal
  instance is, at entry `(i, c)`, `x i c` plus the sum of the update entries `upd j c` over the update rows `j` whose
  index `idx[j, 0]`, read as a signed integer, is `i` (`scatterAdd_rows_apply`); an update row whose index is outside
  `[0, N)` contributes nothing.

  Axis 0 of the operand is the inserted, index-addressed axis: the window of update entry `(j, c')` starts there at
  `idx[j, 0]` and has window coordinate `0`. Axis 1 is the update window axis: the window starts there at `0` and the
  window coordinate is `c'`. So update entry `(j, c')` lands on `(i, c)` exactly when `idx[j, 0] = i` and `c' = c`; the
  sum over the rank-2 update index set is the double sum over `(j, c')`, and the inner sum over `c'` is its one term
  `c' = c`.
-/
import Idealize.ShloMosaic.Lib.ValueIdx

noncomputable section

open scoped BigOperators

namespace Cert.Lib.ScatterRows

open Idealize.ShloMosaic Idealize.ShloMosaic.ValueIdx

/-- The dimension numbers of `x.at[idx].add(upd)` for an operand `[N, C]`, scatter indices `[M, 1]` and updates
    `[M, C]`: the updates' axis 1 is the one update window axis, the operand's axis 0 is inserted, and each index
    vector is one scalar addressing it. -/
abbrev rowDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- On the operand's axis 0 the window of update entry `(j, c')` starts at the scatter index `idx[j, 0]` read signed. -/
theorem start_zero (idx : IVec ⟨2, ![M, 1]⟩ w) (j : Fin M) (c' : Fin C) :
    (rowDims N C M wf).start (ix2 j c') idx 0 = (idx (ix2 j (0 : Fin 1))).toInt := by
  unfold ScatterDims.start
  rw [dif_pos (show (0 : Fin 2) ∈ (rowDims N C M wf).scatterDimsToOperandDims from List.mem_singleton.mpr rfl)]
  have hsi : (rowDims N C M wf).siIdx (ix2 j c') ⟨List.idxOf (0 : Fin 2) (rowDims N C M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the operand's axis 1, which no index component addresses, the window starts at `0`. -/
theorem start_one (idx : IVec ⟨2, ![M, 1]⟩ w) (j : Fin M) (c' : Fin C) :
    (rowDims N C M wf).start (ix2 j c') idx 1 = 0 := by
  unfold ScatterDims.start
  rw [dif_neg]
  simp

/-- The operand's axis 0 is an inserted window axis: the window coordinate on it is `0`. -/
theorem window_zero (j : Fin M) (c' : Fin C) : (rowDims N C M wf).window (ix2 j c') 0 = 0 := by
  unfold ScatterDims.window
  rw [dif_neg]
  simp [ScatterDims.sKept, Shape.kept]

/-- The operand's axis 1 carries the update window axis: the window coordinate on it is the update's column `c'`. -/
theorem window_one (j : Fin M) (c' : Fin C) : (rowDims N C M wf).window (ix2 j c') 1 = c'.val := by
  unfold ScatterDims.window
  rw [dif_pos (show (1 : Fin 2) ∈ (rowDims N C M wf).sKept by simp [ScatterDims.sKept, Shape.kept])]
  rfl

/-- Start plus window coordinate of update entry `(j, c')` on axis 0: its scatter index read signed. -/
theorem start_add_window_zero (idx : IVec ⟨2, ![M, 1]⟩ w) (j : Fin M) (c' : Fin C) :
    (rowDims N C M wf).start (ix2 j c') idx 0 + ((rowDims N C M wf).window (ix2 j c') 0 : ℤ)
      = (idx (ix2 j (0 : Fin 1))).toInt := by
  rw [start_zero, window_zero]; simp

/-- Start plus window coordinate of update entry `(j, c')` on axis 1: its column `c'`. -/
theorem start_add_window_one (idx : IVec ⟨2, ![M, 1]⟩ w) (j : Fin M) (c' : Fin C) :
    (rowDims N C M wf).start (ix2 j c') idx 1 + ((rowDims N C M wf).window (ix2 j c') 1 : ℤ) = (c'.val : ℤ) := by
  rw [start_one, window_one]; simp

/-- Update entry `(j, c')` lands on entry `(i, c)` exactly when its scatter index, read signed, is `i` and `c' = c`. -/
theorem resultIdx?_eq_some_iff (idx : IVec ⟨2, ![M, 1]⟩ w) (j : Fin M) (c' : Fin C) (i : Fin N) (c : Fin C) :
    (rowDims N C M wf).resultIdx? (ix2 j c') idx = some (ix2 i c)
      ↔ (idx (ix2 j (0 : Fin 1))).toInt = (i.val : ℤ) ∧ c' = c := by
  unfold ScatterDims.resultIdx?
  constructor
  · intro h
    split at h
    · rename_i hall
      have h0 := congrArg Fin.val (congrFun (Option.some.inj h) (0 : Fin 2))
      have h1 := congrArg Fin.val (congrFun (Option.some.inj h) (1 : Fin 2))
      have hb := hall (0 : Fin 2)
      rw [start_add_window_zero] at hb
      change ((rowDims N C M wf).start (ix2 j c') idx 0 + ((rowDims N C M wf).window (ix2 j c') 0 : ℤ)).toNat
        = i.val at h0
      change ((rowDims N C M wf).start (ix2 j c') idx 1 + ((rowDims N C M wf).window (ix2 j c') 1 : ℤ)).toNat
        = c.val at h1
      rw [start_add_window_zero] at h0
      rw [start_add_window_one] at h1
      refine ⟨by omega, Fin.ext (by omega)⟩
    · exact absurd h (by simp)
  · rintro ⟨hz, rfl⟩
    have hall : ∀ a : Fin 2, 0 ≤ (rowDims N C M wf).start (ix2 j c') idx a + ((rowDims N C M wf).window (ix2 j c') a : ℤ)
        ∧ (rowDims N C M wf).start (ix2 j c') idx a + ((rowDims N C M wf).window (ix2 j c') a : ℤ)
            < ((⟨2, ![N, C]⟩ : Shape).size a : ℤ) := by
      intro a
      match a with
      | ⟨0, _⟩ =>
        have e := start_add_window_zero wf idx j c'
        have hi : (i.val : ℤ) < (N : ℤ) := by exact_mod_cast i.isLt
        refine ⟨?_, ?_⟩
        · change 0 ≤ (rowDims N C M wf).start (ix2 j c') idx 0 + ((rowDims N C M wf).window (ix2 j c') 0 : ℤ)
          rw [e, hz]; omega
        · change (rowDims N C M wf).start (ix2 j c') idx 0 + ((rowDims N C M wf).window (ix2 j c') 0 : ℤ) < (N : ℤ)
          rw [e, hz]; exact hi
      | ⟨1, _⟩ =>
        have e := start_add_window_one wf idx j c'
        have hc : (c'.val : ℤ) < (C : ℤ) := by exact_mod_cast c'.isLt
        refine ⟨?_, ?_⟩
        · change 0 ≤ (rowDims N C M wf).start (ix2 j c') idx 1 + ((rowDims N C M wf).window (ix2 j c') 1 : ℤ)
          rw [e]; omega
        · change (rowDims N C M wf).start (ix2 j c') idx 1 + ((rowDims N C M wf).window (ix2 j c') 1 : ℤ) < (C : ℤ)
          rw [e]; exact hc
    rw [dif_pos hall]
    congr 1
    funext a
    refine Fin.ext ?_
    match a with
    | ⟨0, _⟩ =>
      change ((rowDims N C M wf).start (ix2 j c') idx 0 + ((rowDims N C M wf).window (ix2 j c') 0 : ℤ)).toNat = i.val
      rw [start_add_window_zero, hz]; omega
    | ⟨1, _⟩ =>
      change ((rowDims N C M wf).start (ix2 j c') idx 1 + ((rowDims N C M wf).window (ix2 j c') 1 : ℤ)).toNat = c'.val
      rw [start_add_window_one]; omega

/-- The scatter read at entry `(i, c)`: the operand's entry plus the column-`c` entries of the update rows whose
    scatter index is `i`. -/
theorem scatterAdd_rows_apply {φ : FTy} (x : FVec Ideal ⟨2, ![N, C]⟩ φ) (idx : IVec ⟨2, ![M, 1]⟩ w)
    (upd : FVec Ideal ⟨2, ![M, C]⟩ φ) (i : Fin N) (c : Fin C) :
    Host.scatterAdd (F := Ideal) (rowDims N C M wf) x idx upd (ix2 i c)
      = x (ix2 i c) + ∑ j : Fin M, if (idx (ix2 j (0 : Fin 1))).toInt = (i.val : ℤ) then upd (ix2 j c) else 0 := by
  show Ideal.hostScatterAdd (rowDims N C M wf) x idx upd (ix2 i c) = _
  unfold Ideal.hostScatterAdd
  congr 1
  rw [Finset.sum_filter, sum_idx2]
  refine Finset.sum_congr rfl fun j _ => ?_
  have hinner : ∀ c' : Fin C,
      (if (rowDims N C M wf).resultIdx? (ix2 j c') idx = some (ix2 i c) then upd (ix2 j c') else 0)
        = if c = c' then (if (idx (ix2 j (0 : Fin 1))).toInt = (i.val : ℤ) then upd (ix2 j c') else 0) else 0 := by
    intro c'
    by_cases hcc : c = c'
    · subst hcc
      rw [if_pos rfl]
      by_cases h : (idx (ix2 j (0 : Fin 1))).toInt = (i.val : ℤ)
      · rw [if_pos h, if_pos ((resultIdx?_eq_some_iff wf idx j c i c).2 ⟨h, rfl⟩)]
      · rw [if_neg h, if_neg (fun h' => h ((resultIdx?_eq_some_iff wf idx j c i c).1 h').1)]
    · rw [if_neg hcc, if_neg (fun h' => hcc ((resultIdx?_eq_some_iff wf idx j c' i c).1 h').2.symm)]
  rw [Finset.sum_congr rfl (fun c' _ => hinner c'), Finset.sum_ite_eq, if_pos (Finset.mem_univ c)]

end Cert.Lib.ScatterRows

end
-- ==== Proof.RefSide.lean ====
/-
  The reference read at an entry, on the extended reals.

  Its hidden entry `(n, q)` is the rectified sum of the aggregated projected edge features, the projected node
  features and the node bias; the mean and the variance of a column are the host's sums over the 50000 rows from
  zero divided by 50000; the output entry is the hidden entry normalised by them, scaled and shifted.
-/
import proofs.«118495_j41162966565588_2_alg».proof.Proof.Gen.ReferenceIdeal.Read
import proofs.«118495_j41162966565588_2_alg».proof.Proof.Spec
import proofs.«118495_j41162966565588_2_alg».proof.Proof.LibScatterRows
import Idealize.ShloMosaic.Lib.ValueIdx
import Idealize.ShloMosaic.Lib.Pipeline.Value
import Idealize.ShloMosaic.PureOps.Ideal.Laws

set_option maxRecDepth 16384

noncomputable section

namespace Cert.RefSide

open Cert.ReferenceIdeal Cert.ReferenceIdeal.Gen Cert.ReferenceIdeal.Read Cert.Spec
open Idealize.ShloMosaic Idealize.ShloMosaic.ValueIdx

variable (x0 : (⟨S50000x256, .f32⟩ : BufTy).Contents (Elt Ideal)) (x1 : (⟨S800000x128, .f32⟩ : BufTy).Contents (Elt Ideal)) (x2 : (⟨S800000, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 x7 x8 : (⟨S256, .f32⟩ : BufTy).Contents (Elt Ideal))

/-- The divisor both programs spell: the word of 50000.0. -/
abbrev c5e4 : EReal := Ideal.ofBits .f32 0x47435000#32

/-- The message of edge `e` in column `q`: its projected features plus the edge bias. -/
def msg (e : Fin 800000) (q : Fin 256) : EReal := (∑ k : Fin 128, x1 (ix2 e k) * x5 (ix2 q k)) + x6 (ix1 q)

/-- The reference's hidden entry. -/
def HR (n : Fin 50000) (q : Fin 256) : EReal :=
  max (((z32 + ∑ e : Fin 800000, if (x2 (ix1 e)).toInt = (n.val : ℤ) then msg x1 x5 x6 e q else 0)
    + ∑ k : Fin 256, x0 (ix2 n k) * x3 (ix2 q k)) + x4 (ix1 q)) z32

/-- The reference's column mean and variance. -/
def meanR (q : Fin 256) : EReal := Ideal.div (z32 + ∑ n : Fin 50000, HR x0 x1 x2 x3 x4 x5 x6 n q) c5e4
def varR (q : Fin 256) : EReal :=
  Ideal.div (z32 + ∑ n : Fin 50000, (HR x0 x1 x2 x3 x4 x5 x6 n q - meanR x0 x1 x2 x3 x4 x5 x6 q)
    * (HR x0 x1 x2 x3 x4 x5 x6 n q - meanR x0 x1 x2 x3 x4 x5 x6 q)) c5e4

set_option maxHeartbeats 100000

theorem v3_apply (e : Fin 800000) (q : Fin 256) : val_main_v3 (F := Ideal) x1 x5 x6 (ix2 e q) = msg x1 x5 x6 e q := by
  unfold msg
  rw [val_main_v3_apply, val_main_v0_apply, val_main_v2_apply, val_main_v1_apply]
  have l : ∀ k, lidx_main_v0 (ix2 e q) k = ix2 e k := fun k => funext fun a => Fin.ext (by match a with | ⟨0, _⟩ => rfl | ⟨1, _⟩ => rfl)
  have r : ∀ k, ridx_main_v0 (ix2 e q) k = ix2 q k := fun k => funext fun a => Fin.ext (by match a with | ⟨0, _⟩ => rfl | ⟨1, _⟩ => rfl)
  have i1 : idx_main_v1 (idx_main_v2 (ix2 e q)) = ix1 q := funext fun a => Fin.ext (by match a with | ⟨0, _⟩ => rfl)
  simp only [l, r, i1, Ideal.addf_def]

theorem v6_apply (n : Fin 50000) (q : Fin 256) :
    val_main_v6 (F := Ideal) x1 x2 x5 x6 (ix2 n q)
      = z32 + ∑ e : Fin 800000, if (x2 (ix1 e)).toInt = (n.val : ℤ) then msg x1 x5 x6 e q else 0 := by
  unfold val_main_v6
  refine (Cert.Lib.ScatterRows.scatterAdd_rows_apply (wf := scatter_S50000x256_S800000x1_S800000x256_1_0_0_1_wf) _ _ _ n q).trans ?_
  rw [val_main_v4_apply, val_main_cst_apply, Ideal.ofBits_def]
  refine congrArg (z32 + ·) (Finset.sum_congr rfl fun e _ => ?_)
  have i5 : idx_main_v5 (ix2 e (0 : Fin 1)) = ix1 e := funext fun a => Fin.ext (by match a with | ⟨0, _⟩ => rfl)
  rw [val_main_v5_apply, v3_apply, i5]

theorem v12_apply (n : Fin 50000) (q : Fin 256) :
    val_main_v12 (F := Ideal) x0 x1 x2 x3 x4 x5 x6 (ix2 n q) = HR x0 x1 x2 x3 x4 x5 x6 n q := by
  unfold HR
  rw [val_main_v12_apply, val_main_v11_apply, val_main_v8_apply, val_main_v10_apply, val_main_v9_apply, val_main_v7_apply,
    val_main_call0_v0_apply, val_main_call0_cst_apply, v6_apply]
  have l : ∀ k, lidx_main_v7 (ix2 n q) k = ix2 n k := fun k => funext fun a => Fin.ext (by match a with | ⟨0, _⟩ => rfl | ⟨1, _⟩ => rfl)
  have r : ∀ k, ridx_main_v7 (ix2 n q) k = ix2 q k := fun k => funext fun a => Fin.ext (by match a with | ⟨0, _⟩ => rfl | ⟨1, _⟩ => rfl)
  have i9 : idx_main_v9 (idx_main_v10 (ix2 n q)) = ix1 q := funext fun a => Fin.ext (by match a with | ⟨0, _⟩ => rfl)
  simp only [l, r, i9, Ideal.addf_def, Ideal.maximumf_def, Ideal.ofBits_def]

theorem v15_apply (q : Fin 256) : val_main_v15 (F := Ideal) x0 x1 x2 x3 x4 x5 x6 (ix1 q) = meanR x0 x1 x2 x3 x4 x5 x6 q := by
  unfold meanR
  rw [val_main_v15_apply, val_main_v13_apply, val_main_v14_apply, val_main_cst_1_apply, val_main_cst_0_apply]
  have i13 : ∀ n, idx_main_v13 (ix1 q) n = ix2 n q := fun n => funext fun a => Fin.ext (by match a with | ⟨0, _⟩ => rfl | ⟨1, _⟩ => rfl)
  simp only [i13, v12_apply, Ideal.hostDivf_def, Ideal.ofBits_def]

/-- The squared deviation from the column mean at `(n, q)`. -/
theorem v19_apply (n : Fin 50000) (q : Fin 256) :
    val_main_v19 (F := Ideal) x0 x1 x2 x3 x4 x5 x6 (ix2 n q)
      = (HR x0 x1 x2 x3 x4 x5 x6 n q - meanR x0 x1 x2 x3 x4 x5 x6 q) * (HR x0 x1 x2 x3 x4 x5 x6 n q - meanR x0 x1 x2 x3 x4 x5 x6 q) := by
  have i16 : idx_main_v16 (idx_main_v17 (ix2 n q)) = ix1 q := funext fun a => Fin.ext (by match a with | ⟨0, _⟩ => rfl)
  rw [val_main_v19_apply, val_main_v18_apply, val_main_v17_apply, val_main_v16_apply, i16, v12_apply, v15_apply]
  simp only [Ideal.mulf_def, Ideal.subf_def]

theorem v22_apply (q : Fin 256) : val_main_v22 (F := Ideal) x0 x1 x2 x3 x4 x5 x6 (ix1 q) = varR x0 x1 x2 x3 x4 x5 x6 q := by
  unfold varR
  rw [val_main_v22_apply, val_main_v20_apply, val_main_v21_apply, val_main_cst_3_apply, val_main_cst_2_apply]
  have i20 : ∀ n, idx_main_v20 (ix1 q) n = ix2 n q := fun n => funext fun a => Fin.ext (by match a with | ⟨0, _⟩ => rfl | ⟨1, _⟩ => rfl)
  simp only [i20, v19_apply, Ideal.hostDivf_def, Ideal.ofBits_def]

/-- The reference's result entry `(n, q)`. -/
theorem v37_apply (n : Fin 50000) (q : Fin 256) :
    val_main_v37 (F := Ideal) x0 x1 x2 x3 x4 x5 x6 x7 x8 (ix2 n q)
      = fin (HR x0 x1 x2 x3 x4 x5 x6 n q) (meanR x0 x1 x2 x3 x4 x5 x6 q) (varR x0 x1 x2 x3 x4 x5 x6 q) (x7 (ix1 q)) (x8 (ix1 q)) := by
  unfold fin
  have i23 : idx_main_v23 (idx_main_v24 (ix2 n q)) = ix1 q := funext fun a => Fin.ext (by match a with | ⟨0, _⟩ => rfl)
  have i29 : idx_main_v29 (idx_main_v30 (ix2 n q)) = ix1 q := funext fun a => Fin.ext (by match a with | ⟨0, _⟩ => rfl)
  have i32 : idx_main_v32 (idx_main_v33 (ix2 n q)) = ix1 q := funext fun a => Fin.ext (by match a with | ⟨0, _⟩ => rfl)
  have i35 : idx_main_v35 (idx_main_v36 (ix2 n q)) = ix1 q := funext fun a => Fin.ext (by match a with | ⟨0, _⟩ => rfl)
  rw [val_main_v37_apply, val_main_v34_apply, val_main_v31_apply, val_main_v25_apply, val_main_v24_apply, val_main_v23_apply,
    val_main_v30_apply, val_main_v29_apply, val_main_v28_apply, val_main_v27_apply, val_main_v26_apply, val_main_cst_4_apply,
    val_main_v33_apply, val_main_v32_apply, val_main_v36_apply, val_main_v35_apply, i23, i29, i32, i35, v12_apply, v15_apply, v22_apply]
  simp only [Ideal.addf_def, Ideal.mulf_def, Ideal.subf_def, Ideal.hostUnary_rsqrt_def, Ideal.ofBits_def]

end Cert.RefSide

end
-- ==== Proof.LibScatterCat.lean ====
/-
  THE ACCUMULATING SCATTER OF A FLAT ARRAY, READ AT AN INDEX, AND OVER A CONCATENATION.

  For a flat operand `x : [N]`, scatter indices `idx : [M, 1]` (one scalar index per update) and updates
  `upd : [M]`, the accumulating scatter (`zeros.at[idx].add(upd)`) at the ideal instance is, at element `i`,
  `x i` plus the sum of the updates `upd j` whose index `idx[j, 0]`, read as a signed integer, is `i`
  (`scatterAdd_apply`); an update whose index is outside `[0, N)` contributes nothing. Since that is a sum over
  the update list, scattering a concatenation of two update lists at the concatenation of their index lists is
  scattering the first list and then the second into the result (`scatterAdd_append`): sums in the extended
  reals reassociate freely.
-/
import Idealize.ShloMosaic.Lib.ValueIdx

noncomputable section

open scoped BigOperators

namespace Cert.Lib.ScatterCat

open Idealize.ShloMosaic Idealize.ShloMosaic.ValueIdx

/-- The dimension numbers of `zeros.at[idx].add(upd)` for a flat operand `[N]`, scatter indices `[M, 1]` and
    updates `[M]`: no update window axes, the operand's one axis inserted, each index vector one scalar for it. -/
abbrev addDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The window of update `j` starts, on the operand's one axis, at its scatter index `idx[j, 0]` read signed. -/
theorem start_eq {N M w : Nat} (wf : ScatterDims.WF ⟨1, ![N]⟩ ⟨2, ![M, 1]⟩ ⟨1, ![M]⟩ [] [0] [0] 1)
    (idx : IVec ⟨2, ![M, 1]⟩ w) (j : Fin M) :
    (addDims N M wf).start (ix1 j) idx 0 = (idx (ix2 j (0 : Fin 1))).toInt := by
  unfold ScatterDims.start
  rw [dif_pos (show (0 : Fin 1) ∈ (addDims N M wf).scatterDimsToOperandDims from List.mem_singleton.mpr rfl)]
  have hsi : (addDims N M wf).siIdx (ix1 j) ⟨List.idxOf (0 : Fin 1) (addDims N M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The operand's one axis is an inserted window axis: the window coordinate on it is `0`. -/
theorem window_eq {N M : Nat} (wf : ScatterDims.WF ⟨1, ![N]⟩ ⟨2, ![M, 1]⟩ ⟨1, ![M]⟩ [] [0] [0] 1) (j : Fin M) :
    (addDims N M wf).window (ix1 j) 0 = 0 := by
  unfold ScatterDims.window
  rw [dif_neg]
  simp [ScatterDims.sKept, Shape.kept]

/-- On the operand's one axis, start plus window coordinate of update `j` is its scatter index read signed. -/
theorem start_add_window {N M w : Nat} (wf : ScatterDims.WF ⟨1, ![N]⟩ ⟨2, ![M, 1]⟩ ⟨1, ![M]⟩ [] [0] [0] 1)
    (idx : IVec ⟨2, ![M, 1]⟩ w) (j : Fin M) (a : Fin 1) :
    (addDims N M wf).start (ix1 j) idx a + ((addDims N M wf).window (ix1 j) a : ℤ)
      = (idx (ix2 j (0 : Fin 1))).toInt := by
  obtain rfl : a = 0 := Subsingleton.elim _ _
  rw [start_eq, window_eq]; simp

/-- Update `j` lands on element `i` exactly when its scatter index, read signed, is `i`. -/
theorem resultIdx?_eq_some_iff {N M w : Nat} (wf : ScatterDims.WF ⟨1, ![N]⟩ ⟨2, ![M, 1]⟩ ⟨1, ![M]⟩ [] [0] [0] 1)
    (idx : IVec ⟨2, ![M, 1]⟩ w) (j : Fin M) (i : Fin N) :
    (addDims N M wf).resultIdx? (ix1 j) idx = some (ix1 i) ↔ (idx (ix2 j (0 : Fin 1))).toInt = (i.val : ℤ) := by
  unfold ScatterDims.resultIdx?
  constructor
  · intro h
    split at h
    · rename_i hall
      have h0 := congrArg Fin.val (congrFun (Option.some.inj h) (0 : Fin 1))
      have hb := hall (0 : Fin 1)
      rw [start_add_window] at hb
      change ((addDims N M wf).start (ix1 j) idx 0 + ((addDims N M wf).window (ix1 j) 0 : ℤ)).toNat = i.val at h0
      rw [start_add_window] at h0
      omega
    · exact absurd h (by simp)
  · intro hz
    have hall : ∀ a : Fin 1, 0 ≤ (addDims N M wf).start (ix1 j) idx a + ((addDims N M wf).window (ix1 j) a : ℤ)
        ∧ (addDims N M wf).start (ix1 j) idx a + ((addDims N M wf).window (ix1 j) a : ℤ)
            < ((⟨1, ![N]⟩ : Shape).size a : ℤ) := by
      intro a
      rw [start_add_window, hz]
      obtain rfl : a = 0 := Subsingleton.elim _ _
      have hi : (i.val : ℤ) < (N : ℤ) := by exact_mod_cast i.isLt
      exact ⟨by omega, hi⟩
    rw [dif_pos hall]
    congr 1
    funext a
    obtain rfl : a = 0 := Subsingleton.elim _ _
    refine Fin.ext ?_
    change ((addDims N M wf).start (ix1 j) idx 0 + ((addDims N M wf).window (ix1 j) 0 : ℤ)).toNat = i.val
    rw [start_add_window, hz]
    omega

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scatter read at element `i`: the operand's element plus the updates whose scatter index is `i`. -/
theorem scatterAdd_apply {φ : FTy} {N M w : Nat} (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (i : Fin N) :
    Host.scatterAdd (F := Ideal) (addDims N M wf) x idx upd (ix1 i)
      = x (ix1 i) + ∑ j : Fin M, if (idx (ix2 j (0 : Fin 1))).toInt = (i.val : ℤ) then upd (ix1 j) else 0 := by
  show Ideal.hostScatterAdd (addDims N M wf) x idx upd (ix1 i) = _
  unfold Ideal.hostScatterAdd
  congr 1
  rw [Finset.sum_filter, sum_idx1]
  refine Finset.sum_congr rfl fun j _ => ?_
  by_cases h : (idx (ix2 j (0 : Fin 1))).toInt = (i.val : ℤ)
  · rw [if_pos h, if_pos ((resultIdx?_eq_some_iff wf idx j i).2 h)]
  · rw [if_neg h, if_neg (fun h' => h ((resultIdx?_eq_some_iff wf idx j i).1 h'))]

/-- Scattering the concatenation of two update lists at the concatenation of their index lists is scattering the
    first list, then the second into the result: at each element both are the operand's element plus the updates of
    both lists that land on it. -/
theorem scatterAdd_append {φ : FTy} {N M M2 w : Nat} (hM2 : M2 = M + M)
    (wf : ScatterDims.WF ⟨1, ![N]⟩ ⟨2, ![M, 1]⟩ ⟨1, ![M]⟩ [] [0] [0] 1)
    (wf2 : ScatterDims.WF ⟨1, ![N]⟩ ⟨2, ![M2, 1]⟩ ⟨1, ![M2]⟩ [] [0] [0] 1)
    (x : FVec Ideal ⟨1, ![N]⟩ φ)
    (ia ib : IVec ⟨2, ![M, 1]⟩ w) (iab : IVec ⟨2, ![M2, 1]⟩ w)
    (ua ub : FVec Ideal ⟨1, ![M]⟩ φ) (uab : FVec Ideal ⟨1, ![M2]⟩ φ)
    (hia : ∀ j : Fin M, iab (ix2 (⟨j.val, by omega⟩ : Fin M2) (0 : Fin 1)) = ia (ix2 j 0))
    (hib : ∀ j : Fin M, iab (ix2 (⟨M + j.val, by omega⟩ : Fin M2) (0 : Fin 1)) = ib (ix2 j 0))
    (hua : ∀ j : Fin M, uab (ix1 (⟨j.val, by omega⟩ : Fin M2)) = ua (ix1 j))
    (hub : ∀ j : Fin M, uab (ix1 (⟨M + j.val, by omega⟩ : Fin M2)) = ub (ix1 j)) :
    Host.scatterAdd (F := Ideal) (addDims N M2 wf2) x iab uab
      = Host.scatterAdd (F := Ideal) (addDims N M wf) (Host.scatterAdd (F := Ideal) (addDims N M wf) x ia ua) ib ub := by
  subst hM2
  funext i
  obtain ⟨i0, rfl⟩ : ∃ i0, i = ix1 i0 := ⟨i 0, eq_ix1 i⟩
  rw [scatterAdd_apply, scatterAdd_apply, scatterAdd_apply, Fin.sum_univ_add, add_assoc]
  congr 2
  · refine Finset.sum_congr rfl fun j _ => ?_
    have e : (Fin.castAdd M j : Fin (M + M)) = ⟨j.val, by omega⟩ := Fin.ext rfl
    rw [e, hia, hua]
  · refine Finset.sum_congr rfl fun j _ => ?_
    have e : (Fin.natAdd M j : Fin (M + M)) = ⟨M + j.val, by omega⟩ := Fin.ext rfl
    rw [e, hib, hub]

end Cert.Lib.ScatterCat

end
-- ==== Proof.Join.lean ====
/-
  The two programs' results agree entry by entry, for real-valued float inputs.

  The kernel's edge aggregate and degree column are the two scatter-adds read at coordinates; with them the kernel's
  hidden entry is the reference's by the linearity of the projection, the kernel's mean is the reference's because
  the two cores' run totals make up the whole column sum, and the kernel's clipped "mean of squares minus squared
  mean" is the reference's mean of squared deviations.
-/
import proofs.«118495_j41162966565588_2_alg».proof.Proof.KernelSide
import proofs.«118495_j41162966565588_2_alg».proof.Proof.RefSide
import proofs.«118495_j41162966565588_2_alg».proof.Proof.Math
import proofs.«118495_j41162966565588_2_alg».proof.Proof.LibReal
import proofs.«118495_j41162966565588_2_alg».proof.Proof.LibScatterRows
import proofs.«118495_j41162966565588_2_alg».proof.Proof.LibScatterCat
import proofs.«118495_j41162966565588_2_alg».proof.Proof.LibLayout

set_option maxRecDepth 16384

noncomputable section

namespace Cert.Join

open Cert.KernelIdeal Cert.KernelIdeal.Gen Cert.Spec Cert.Stats Cert.Boundary Cert.KernelSide Cert.LibReal
open Idealize.ShloMosaic Idealize.ShloMosaic.TcCoe Idealize.SL.Sem Idealize.ShloMosaic.ValueIdx

/-- The unit both scatter-adds count edges with: the word of 1.0. -/
abbrev one32 : EReal := Ideal.ofBits .f32 0x3F800000#32

theorem one32_eq : one32 = 1 := by
  unfold one32
  simp [Ideal.ofBits, Ideal.ieee, -EReal.coe_mul]
  norm_num

theorem c5e4_eq : c5e4 = ((50000 : ℝ) : EReal) := by
  unfold c5e4
  simp [Ideal.ofBits, Ideal.ieee, -EReal.coe_mul]
  norm_num

theorem isReal_z32 : IsReal z32 := by
  rw [show z32 = 0 from Ideal.ofBits_zero_f32]; exact isReal_zero

/-- The destination column read through the host's broadcast to `[E, 1]`. -/
theorem idx_bcast (I : IVec S800000 32) (e : Fin 800000) :
    broadcastInDim S800000x1 ![0] bcast_S800000_S800000x1_0 I (ix2 e (0 : Fin 1)) = I (ix1 e) :=
  broadcastInDim_apply _ bcast_S800000_S800000x1_0 I (ix2 e (0 : Fin 1)) (ix1 e) (fun a => match a with
    | ⟨0, _⟩ => by show e.val = if (800000 : Nat) = 1 then 0 else e.val; rw [if_neg (by decide)])

section Args
variable (m : (ℓ : Loc nD τ sig) → Buf (Elt Ideal) ℓ) (c : Dev nD)
/-- The nine arguments as launched, at their literal vector types. -/
abbrev X0 : FVec Ideal S50000x256 .f32 := m ((c : Thread nD τ).loc main_arg0)
abbrev X1 : FVec Ideal S800000x128 .f32 := m ((c : Thread nD τ).loc main_arg1)
abbrev X2 : IVec S800000 32 := m ((c : Thread nD τ).loc main_arg2)
abbrev X3 : FVec Ideal S256x256 .f32 := m ((c : Thread nD τ).loc main_arg3)
abbrev X4 : FVec Ideal S256 .f32 := m ((c : Thread nD τ).loc main_arg4)
abbrev X5 : FVec Ideal S256x128 .f32 := m ((c : Thread nD τ).loc main_arg5)
abbrev X6 : FVec Ideal S256 .f32 := m ((c : Thread nD τ).loc main_arg6)
abbrev X7 : FVec Ideal S256 .f32 := m ((c : Thread nD τ).loc main_arg7)
abbrev X8 : FVec Ideal S256 .f32 := m ((c : Thread nD τ).loc main_arg8)
end Args

variable (m : (ℓ : Loc nD τ sig) → Buf (Elt Ideal) ℓ) (ρ : Dev nD → PrngReg) (c : Dev nD)

/-- The edge features summed into their destination nodes, at `(n, f)`. -/
theorem aw_apply (n : Fin 50000) (f : Fin 128) :
    m2 (a := 50000) (b := 128) (V1 m ρ c main_v2) n f
      = z32 + ∑ e : Fin 800000, if ((X2 m c) (ix1 e)).toInt = (n.val : ℤ) then (X1 m c) (ix2 e f) else 0 := by
  show V1 m ρ c main_v2 (ix2 n f) = _
  rw [V1_main_v2]
  refine (Cert.Lib.ScatterRows.scatterAdd_rows_apply (wf := scatter_S50000x128_S800000x1_S800000x128_1_0_0_1_wf) _ _ _ n f).trans ?_
  rw [bcast_const]
  refine congrArg (z32 + ·) (Finset.sum_congr rfl fun e _ => ?_)
  rw [idx_bcast]

/-- The number of edges arriving at node `n`. -/
theorem dg_apply (n : Fin 50000) :
    col (a := 50000) (V1 m ρ c main_v7) n
      = z32 + ∑ e : Fin 800000, if ((X2 m c) (ix1 e)).toInt = (n.val : ℤ) then one32 else 0 := by
  show V1 m ρ c main_v7 (ix2 n (0 : Fin 1)) = _
  rw [V1_main_v7, Cert.LibLayout.shapeCast_a_a1_apply]
  refine (Cert.Lib.ScatterCat.scatterAdd_apply scatter_S50000_S800000x1_S800000_n_0_0_1_wf _ _ _ n).trans ?_
  rw [bcast_const]
  refine congrArg (z32 + ·) (Finset.sum_congr rfl fun e _ => ?_)
  rw [idx_bcast, bcast_const]

/-- The two bias rows and the three matrices the first call finds are the arguments. -/
theorem ba_row (q : Fin 256) : row (b := 256) (V1 m ρ c main_v8) q = X4 m c (ix1 q) := by
  show V1 m ρ c main_v8 (ix2 (0 : Fin 1) q) = _
  rw [V1_main_v8]
  exact shapeCast_a_1a_apply _ _ 0 q
theorem bb_row (q : Fin 256) : row (b := 256) (V1 m ρ c main_v9) q = X6 m c (ix1 q) := by
  show V1 m ρ c main_v9 (ix2 (0 : Fin 1) q) = _
  rw [V1_main_v9]
  exact shapeCast_a_1a_apply _ _ 0 q
theorem x_m2 : m2 (a := 50000) (b := 256) (V1 m ρ c main_arg0) = m2 (X0 m c) := by rw [V1_main_arg0]
theorem wa_m2 : m2 (a := 256) (b := 256) (V1 m ρ c main_arg3) = m2 (X3 m c) := by rw [V1_main_arg3]
theorem wb_m2 : m2 (a := 256) (b := 128) (V1 m ρ c main_arg5) = m2 (X5 m c) := by rw [V1_main_arg5]

section Real

variable (h0 : RealVec (X0 m c)) (h1 : RealVec (X1 m c)) (h3 : RealVec (X3 m c)) (h4 : RealVec (X4 m c)) (h5 : RealVec (X5 m c)) (h6 : RealVec (X6 m c))
include h0 h1 h3 h4 h5 h6

/-- The reference's hidden entry is a real number. -/
theorem isReal_HR (n : Fin 50000) (q : Fin 256) : IsReal (Cert.RefSide.HR (X0 m c) (X1 m c) (X2 m c) (X3 m c) (X4 m c) (X5 m c) (X6 m c) n q) := by
  unfold Cert.RefSide.HR Cert.RefSide.msg
  refine IsReal.max (IsReal.add (IsReal.add (IsReal.add isReal_z32 (IsReal.sum _ _ fun e _ => ?_)) (IsReal.sum _ _ fun k _ => IsReal.mul (h0 _) (h3 _))) (h4 _)) isReal_z32
  split_ifs
  · exact IsReal.add (IsReal.sum _ _ fun k _ => IsReal.mul (h1 _) (h5 _)) (h6 _)
  · exact isReal_zero

/-- The kernel's hidden entry is the reference's. -/
theorem HK_eq (n : Fin 50000) (q : Fin 256) : HK m ρ c n q = Cert.RefSide.HR (X0 m c) (X1 m c) (X2 m c) (X3 m c) (X4 m c) (X5 m c) (X6 m c) n q := by
  unfold HK Hk hrelu Cert.RefSide.HR Cert.RefSide.msg
  have e0 : (∑ k : Fin 256, m2 (a := 50000) (b := 256) (V1 m ρ c main_arg0) n k * m2 (a := 256) (b := 256) (V1 m ρ c main_arg3) q k)
      = ∑ k : Fin 256, X0 m c (ix2 n k) * X3 m c (ix2 q k) := by rw [x_m2, wa_m2]
  have e1 : (∑ k : Fin 128, m2 (a := 50000) (b := 128) (V1 m ρ c main_v2) n k * m2 (a := 256) (b := 128) (V1 m ρ c main_arg5) q k)
      = ∑ k : Fin 128, (z32 + ∑ e : Fin 800000, if ((X2 m c) (ix1 e)).toInt = (n.val : ℤ) then (X1 m c) (ix2 e k) else 0) * X5 m c (ix2 q k) :=
    Finset.sum_congr rfl fun k _ => by rw [aw_apply, wb_m2]
  rw [e0, e1, dg_apply, ba_row, bb_row]
  exact Cert.Math.hidden_eq (fun e : Fin 800000 => ((X2 m c) (ix1 e)).toInt = (n.val : ℤ))
    (fun e k => (X1 m c) (ix2 e k)) (fun e k => h1 _) (fun k => (X5 m c) (ix2 q k)) (fun k => h5 _)
    ((X6 m c) (ix1 q)) (h6 _) (∑ k : Fin 256, (X0 m c) (ix2 n k) * (X3 m c) (ix2 q k))
    (IsReal.sum _ _ fun k _ => IsReal.mul (h0 _) (h3 _)) ((X4 m c) (ix1 q)) (h4 _) z32 one32 Ideal.ofBits_zero_f32 one32_eq

end Real

/-- The kernel's mean row is zero plus the whole column sum, over 50000. -/
theorem meanK_eq (q : Fin 256) : meanK m ρ c q = Ideal.div (z32 + ∑ n : Fin 50000, HK m ρ c n q) c5e4 := by
  unfold meanK tot addend
  show Ideal.div (z32 + ((z32 + ∑ s ∈ Finset.Icc 0 24, ∑ r : Fin 1000, Cert.Math.ext0 (fun n => HK m ρ c n q) (s * 1000 + r.val))
      + (z32 + ∑ s ∈ Finset.Icc 25 49, ∑ r : Fin 1000, Cert.Math.ext0 (fun n => HK m ρ c n q) (s * 1000 + r.val)))) c5e4 = _
  rw [Cert.Math.totals_sum _ z32 Ideal.ofBits_zero_f32]

/-- The kernel's variance row in the same terms. -/
theorem varK_eq (q : Fin 256) :
    varK m ρ c q = max (Ideal.div (z32 + ∑ n : Fin 50000, HK m ρ c n q * HK m ρ c n q) c5e4 - meanK m ρ c q * meanK m ρ c q) z32 := by
  unfold varK tot addend
  show max (Ideal.div (z32 + ((z32 + ∑ s ∈ Finset.Icc 0 24, ∑ r : Fin 1000, Cert.Math.ext0 (fun n => HK m ρ c n q * HK m ρ c n q) (s * 1000 + r.val))
      + (z32 + ∑ s ∈ Finset.Icc 25 49, ∑ r : Fin 1000, Cert.Math.ext0 (fun n => HK m ρ c n q * HK m ρ c n q) (s * 1000 + r.val)))) c5e4
      - meanK m ρ c q * meanK m ρ c q) z32 = _
  rw [Cert.Math.totals_sum _ z32 Ideal.ofBits_zero_f32]

section Real2

variable (h0 : RealVec (X0 m c)) (h1 : RealVec (X1 m c)) (h3 : RealVec (X3 m c)) (h4 : RealVec (X4 m c)) (h5 : RealVec (X5 m c)) (h6 : RealVec (X6 m c))
include h0 h1 h3 h4 h5 h6

theorem mean_eq (q : Fin 256) : meanK m ρ c q = Cert.RefSide.meanR (X0 m c) (X1 m c) (X2 m c) (X3 m c) (X4 m c) (X5 m c) (X6 m c) q := by
  rw [meanK_eq]
  unfold Cert.RefSide.meanR
  simp only [HK_eq m ρ c h0 h1 h3 h4 h5 h6]

theorem var_eq (q : Fin 256) : varK m ρ c q = Cert.RefSide.varR (X0 m c) (X1 m c) (X2 m c) (X3 m c) (X4 m c) (X5 m c) (X6 m c) q := by
  rw [varK_eq, mean_eq m ρ c h0 h1 h3 h4 h5 h6]
  unfold Cert.RefSide.varR Cert.RefSide.meanR
  simp only [HK_eq m ρ c h0 h1 h3 h4 h5 h6]
  exact Cert.Math.var_eq (fun n => Cert.RefSide.HR (X0 m c) (X1 m c) (X2 m c) (X3 m c) (X4 m c) (X5 m c) (X6 m c) n q) (fun n => isReal_HR m c h0 h1 h3 h4 h5 h6 n q) z32 c5e4
    Ideal.ofBits_zero_f32 c5e4_eq

/-- The kernel's result entry is the reference's stage at that entry. -/
theorem entry_eq (n : Fin 50000) (q : Fin 256) :
    W4 m ρ c (Proc.devRef .tc main_v23) (ix2 n q)
      = Cert.ReferenceIdeal.Read.val_main_v37 (F := Ideal) (X0 m c) (X1 m c) (X2 m c) (X3 m c) (X4 m c) (X5 m c) (X6 m c) (X7 m c) (X8 m c) (ix2 n q) := by
  rw [result_entry, Cert.RefSide.v37_apply, HK_eq m ρ c h0 h1 h3 h4 h5 h6, mean_eq m ρ c h0 h1 h3 h4 h5 h6, var_eq m ρ c h0 h1 h3 h4 h5 h6]

end Real2

end Cert.Join

end
-- ==== Proof.PreReal.lean ====
/-
  The precondition read: every float input passes the host's finiteness test at every index, so it is an array of
  real numbers. The test is a conjunction, nested to the left, of one "all entries finite" reduction per float input.
-/
import proofs.«118495_j41162966565588_2_alg».proof.Pre_finite_inputs
import proofs.«118495_j41162966565588_2_alg».proof.Proof.Gen.Pre_finite_inputs
import proofs.«118495_j41162966565588_2_alg».proof.Proof.LibReal
import Idealize.ShloMosaic.Lib.ReduceAll
import Idealize.ShloMosaic.Lib.ValueIdx

set_option maxRecDepth 16384

noncomputable section

namespace Cert.PreReal

open Idealize.ShloMosaic Cert.LibReal Cert.Pre_finite_inputs

instance : Subsingleton S_.Idx := ⟨fun a b => funext fun d => d.elim0⟩

/-- Where the finiteness test is all ones, the six float inputs the programs' algebra uses are real-valued. -/
theorem real_of_fn (x0 : FVec Ideal S50000x256 .f32) (x1 : FVec Ideal S800000x128 .f32) (x2 : IVec S800000 32)
    (x3 : FVec Ideal S256x256 .f32) (x4 : FVec Ideal S256 .f32) (x5 : FVec Ideal S256x128 .f32) (x6 x7 x8 : FVec Ideal S256 .f32)
    (h : fn (F := Ideal) x0 x1 x2 x3 x4 x5 x6 x7 x8 = fun _ => 1#1) :
    RealVec x0 ∧ RealVec x1 ∧ RealVec x3 ∧ RealVec x4 ∧ RealVec x5 ∧ RealVec x6 := by
  have e := congrFun h ValueIdx.ix0
  unfold fn fn_part1 fn_part2 at e
  dsimp only at e
  simp only [andi, IntOp.andi_eq_one] at e
  obtain ⟨⟨⟨⟨⟨⟨⟨r0, r1⟩, r3⟩, r4⟩, r5⟩, r6⟩, -⟩, -⟩ := e
  exact ⟨realVec_of_finite_test x0 fun i => Host.reduce_andi_all _ _ _ _ ValueIdx.ix0 r0 i,
    realVec_of_finite_test x1 fun i => Host.reduce_andi_all _ _ _ _ ValueIdx.ix0 r1 i,
    realVec_of_finite_test x3 fun i => Host.reduce_andi_all _ _ _ _ ValueIdx.ix0 r3 i,
    realVec_of_finite_test x4 fun i => Host.reduce_andi_all _ _ _ _ ValueIdx.ix0 r4 i,
    realVec_of_finite_test x5 fun i => Host.reduce_andi_all _ _ _ _ ValueIdx.ix0 r5 i,
    realVec_of_finite_test x6 fun i => Host.reduce_andi_all _ _ _ _ ValueIdx.ix0 r6 i⟩

end Cert.PreReal

end
-- ==== Proof.lean ====
/-
  The proof of `Cert.Claim`: the two kernels' frames are the generated ones; the reference's frame is its generated
  run with the result dropped; the idealization rewrote nothing; and the idealized kernel and the idealized reference
  end with equal results on agreeing real-valued inputs.

  The kernel's result array is read back through the finishing call's blocks to the normalised hidden matrix, its
  mean and variance rows through the host's arithmetic to the statistics call's accumulated run totals, and those
  to the column sums of the hidden matrix and of its square; the reference's result is read one operation at a
  time. Entry by entry the two are the same function of the inputs: the edge projection commutes with the
  aggregation over arriving edges, the two cores' totals make up the whole column sum, and the mean of squares minus
  the squared mean is the non-negative mean of squared deviations.
-/
import proofs.«118495_j41162966565588_2_alg».proof.Defs
import proofs.«118495_j41162966565588_2_alg».proof.Proof.Gen.Kernel
import proofs.«118495_j41162966565588_2_alg».proof.Proof.Gen.Kernel.Skeleton
import proofs.«118495_j41162966565588_2_alg».proof.Proof.Gen.Kernel.Launch
import proofs.«118495_j41162966565588_2_alg».proof.Proof.Gen.Kernel.Points
import proofs.«118495_j41162966565588_2_alg».proof.Proof.Gen.Kernel.Frame
import proofs.«118495_j41162966565588_2_alg».proof.Proof.Gen.KernelIdeal
import proofs.«118495_j41162966565588_2_alg».proof.Proof.Gen.KernelIdeal.Skeleton
import proofs.«118495_j41162966565588_2_alg».proof.Proof.Gen.KernelIdeal.Launch
import proofs.«118495_j41162966565588_2_alg».proof.Proof.Gen.KernelIdeal.Points
import proofs.«118495_j41162966565588_2_alg».proof.Proof.Gen.KernelIdeal.Frame
import proofs.«118495_j41162966565588_2_alg».proof.Proof.Gen.ReferenceIdeal
import proofs.«118495_j41162966565588_2_alg».proof.Proof.Gen.ReferenceIdeal.Run
import proofs.«118495_j41162966565588_2_alg».proof.Proof.Gen.ReferenceIdeal.Read
import proofs.«118495_j41162966565588_2_alg».proof.Proof.Gen.Pre_finite_inputs
import proofs.«118495_j41162966565588_2_alg».proof.Proof.RunValue
import proofs.«118495_j41162966565588_2_alg».proof.Proof.Join
import proofs.«118495_j41162966565588_2_alg».proof.Proof.PreReal
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- On agreeing inputs that pass the finiteness test, both idealized programs run and end with the same result array. -/
theorem algebraic : Cert.algebraic_KernelIdeal_ReferenceIdeal := by
  intro m ρ m' ρ' hpre hagree
  refine ⟨fun c => Cert.KernelIdeal.Gen.W4 m ρ c (Proc.devRef .tc Cert.KernelIdeal.main_v23),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨h0, h1, h3, h4, h5, h6⟩ := Cert.PreReal.real_of_fn _ _ _ _ _ _ _ _ _ (hpre c)
  rw [Cert.ReferenceIdeal.Read.val_main_v37_eq, a0, a1, a2, a3, a4, a5, a6, a7, a8]
  funext i
  obtain ⟨n, q, rfl⟩ : ∃ (n : Fin 50000) (q : Fin 256), i = ix2 n q := ⟨i 0, i 1, eq_ix2 (n0 := 50000) (n1 := 256) i⟩
  exact (Cert.Join.entry_eq m ρ c h0 h1 h3 h4 h5 h6 n q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
